-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x1x48x84 : Shape := ⟨5, ![4, 64, 1, 48, 84]⟩
abbrev S4x64x48x84 : Shape := ⟨4, ![4, 64, 48, 84]⟩
abbrev S_ : Shape := ⟨0, ![]⟩

class Facts : Prop where
  bcast_S_S4x64x1x48x84 : S_.BroadcastsInDim S4x64x1x48x84 (![] : Fin 0 → Fin S4x64x1x48x84.rank)
  reducesTo_S4x64x1x48x84_S_d0_1_2_3_4 : S4x64x1x48x84.ReducesTo [0, 1, 2, 3, 4] S_
  h_S_ : 0 < S_.numel
  bcast_S_S4x64x48x84 : S_.BroadcastsInDim S4x64x48x84 (![] : Fin 0 → Fin S4x64x48x84.rank)
  reducesTo_S4x64x48x84_S_d0_1_2_3 : S4x64x48x84.ReducesTo [0, 1, 2, 3] S_

variable [Facts]

def fn {F : FTy → Type} [FloatOps F] (main_arg0 : FVec F S4x64x1x48x84 .f32) (main_arg1 : FVec F S4x64x48x84 .f32) : IVec S_ 1 :=
  let main_v0 : FVec F S4x64x1x48x84 .f32 := Host.absf main_arg0
  let main_cst : FVec F S_ .f32 := constant S_ .f32 0x7F800000#32
  let main_v1 : FVec F S4x64x1x48x84 .f32 := broadcastInDim S4x64x1x48x84 ![] bcast_S_S4x64x1x48x84 main_cst
  let main_v2 : IVec S4x64x1x48x84 1 := cmpf .olt main_v0 main_v1
  let main_c : IVec S_ 1 := constantI S_ 1 1#1
  let main_v3 : IVec S_ 1 := (fun x v => Host.reduce IntOp.andi x v reducesTo_S4x64x1x48x84_S_d0_1_2_3_4 h_S_) main_v2 main_c
  let main_v4 : FVec F S4x64x48x84 .f32 := Host.absf main_arg1
  let main_cst_0 : FVec F S_ .f32 := constant S_ .f32 0x7F800000#32
  let main_v5 : FVec F S4x64x48x84 .f32 := broadcastInDim S4x64x48x84 ![] bcast_S_S4x64x48x84 main_cst_0
  let main_v6 : IVec S4x64x48x84 1 := cmpf .olt main_v4 main_v5
  let main_c_1 : IVec S_ 1 := constantI S_ 1 1#1
  let main_v7 : IVec S_ 1 := (fun x v => Host.reduce IntOp.andi x v reducesTo_S4x64x48x84_S_d0_1_2_3 h_S_) main_v6 main_c_1
  let main_v8 : IVec S_ 1 := andi main_v3 main_v7
  main_v8
-- ==== Kernel.lean ====
abbrev S4x64x1x48x84 : Shape := ⟨5, ![4, 64, 1, 48, 84]⟩
abbrev S4x64x48x84 : Shape := ⟨4, ![4, 64, 48, 84]⟩
abbrev S4x64x4032 : Shape := ⟨3, ![4, 64, 4032]⟩
abbrev S4x4032x64 : Shape := ⟨3, ![4, 4032, 64]⟩
abbrev S_ : Shape := ⟨0, ![]⟩
abbrev S4x4032 : Shape := ⟨2, ![4, 4032]⟩
abbrev S4x4032x1 : Shape := ⟨3, ![4, 4032, 1]⟩
abbrev S4x4032x4032 : Shape := ⟨3, ![4, 4032, 4032]⟩
abbrev S1x4032x64 : Shape := ⟨3, ![1, 4032, 64]⟩
abbrev S1x4032x1 : Shape := ⟨3, ![1, 4032, 1]⟩
abbrev S1x64x1024 : Shape := ⟨3, ![1, 64, 1024]⟩
abbrev S1x4032x1024 : Shape := ⟨3, ![1, 4032, 1024]⟩
abbrev S4032x64 : Shape := ⟨2, ![4032, 64]⟩
abbrev S4032x1 : Shape := ⟨2, ![4032, 1]⟩
abbrev S64x1024 : Shape := ⟨2, ![64, 1024]⟩
abbrev S4032x1024 : Shape := ⟨2, ![4032, 1024]⟩
abbrev S1024 : Shape := ⟨1, ![1024]⟩
abbrev S1x1024 : Shape := ⟨2, ![1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x64x1x48x84, .f32⟩
  | .hbm, ⟨1, _⟩ => ⟨S4x64x48x84, .f32⟩
  | .hbm, ⟨2, _⟩ => ⟨S4x64x4032, .f32⟩
  | .hbm, ⟨3, _⟩ => ⟨S4x4032x64, .f32⟩
  | .hbm, ⟨4, _⟩ => ⟨S4x64x4032, .f32⟩
  | .hbm, ⟨5, _⟩ => ⟨S4x64x4032, .f32⟩
  | .hbm, ⟨6, _⟩ => ⟨S_, .f32⟩
  | .hbm, ⟨7, _⟩ => ⟨S4x4032, .f32⟩
  | .hbm, ⟨8, _⟩ => ⟨S4x4032x1, .f32⟩
  | .hbm, ⟨9, _⟩ => ⟨S4x4032x4032, .f32⟩
  | .local _ .vmem, ⟨0, _⟩ => ⟨S1x4032x64, .f32⟩
  | .local _ .vmem, ⟨1, _⟩ => ⟨S1x4032x64, .f32⟩
  | .local _ .vmem, ⟨2, _⟩ => ⟨S1x4032x1, .f32⟩
  | .local _ .vmem, ⟨3, _⟩ => ⟨S1x4032x1, .f32⟩
  | .local _ .vmem, ⟨4, _⟩ => ⟨S1x64x1024, .f32⟩
  | .local _ .vmem, ⟨5, _⟩ => ⟨S1x64x1024, .f32⟩
  | .local _ .vmem, ⟨6, _⟩ => ⟨S1x4032x1024, .f32⟩
  | .local _ .vmem, ⟨7, _⟩ => ⟨S1x4032x1024, .f32⟩
  | _, _ => ⟨S4x64x1x48x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4032x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4032x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4032x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x64x1x48x84_S4x64x4032 : S4x64x1x48x84.ShapeCasts S4x64x4032
  transposes_S4x64x4032_S4x4032x64_0_2_1 : S4x64x4032.Transposes [0, 2, 1] S4x4032x64
  shapeCasts_S4x64x48x84_S4x64x4032 : S4x64x48x84.ShapeCasts S4x64x4032
  reducesTo_S4x64x4032_S4x4032_d1 : S4x64x4032.ReducesTo [1] S4x4032
  h_S_ : 0 < S_.numel
  bcast_S4x4032_S4x4032x1_0_1 : S4x4032.BroadcastsInDim S4x4032x1 (![0, 1] : Fin 2 → Fin S4x4032x1.rank)
  inb_S1x4032x64_S1x4032x64_0_0_0 : ∀ a, (![0, 0, 0] : Fin 3 → Nat) a + S1x4032x64.size a ≤ S1x4032x64.size a
  h_S1x4032x64 : 0 < S1x4032x64.numel
  shapeCasts_S1x4032x64_S4032x64 : S1x4032x64.ShapeCasts S4032x64
  inb_S1x4032x1_S1x4032x1_0_0_0 : ∀ a, (![0, 0, 0] : Fin 3 → Nat) a + S1x4032x1.size a ≤ S1x4032x1.size a
  h_S1x4032x1 : 0 < S1x4032x1.numel
  shapeCasts_S1x4032x1_S4032x1 : S1x4032x1.ShapeCasts S4032x1
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  broadcasts_S4032x1_S4032x1024 : S4032x1.Broadcasts S4032x1024
  reduces_S4032x1024_S1024 : S4032x1024.Reduces [0] S1024
  shapeCasts_S1024_S1x1024 : S1024.ShapeCasts S1x1024
  broadcasts_S1x1024_S4032x1024 : S1x1024.Broadcasts S4032x1024
  inb_S1x4032x1024_S1x4032x1024_0_0_0 : ∀ a, (![0, 0, 0] : Fin 3 → Nat) a + S1x4032x1024.size a ≤ S1x4032x1024.size a
  h_S1x4032x1024 : 0 < S1x4032x1024.numel
  shapeCasts_S1x4032x1024_S4032x1024 : S1x4032x1024.ShapeCasts S4032x1024
  shapeCasts_S4032x1024_S1x4032x1024 : S4032x1024.ShapeCasts S1x4032x1024
  dot_S4032x64_S64x1024_S4032x1024_1_0_0_1_n_n_wf : DotDims.WF S4032x64 S64x1024 S4032x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4032x64.size a ≤ S4x4032x64.size a
  hwx0_0 : ∀ i : grid0.Coords, EltTy.bits .f32 = 32 ∨ (Rect.block (s := S4x4032x64) S1x4032x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4032x1.size a ≤ S4x4032x1.size a
  hwx0_1 : ∀ i : grid0.Coords, EltTy.bits .f32 = 32 ∨ (Rect.block (s := S4x4032x1) S1x4032x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x1024.size a < S4x64x4032.size a
  hwx0_2 : ∀ i : grid0.Coords, EltTy.bits .f32 = 32 ∨ (Rect.unit (s := S4x64x4032) (fun a => cc0_transform_2 i a * S1x64x1024.size a) (fun a => (Pipeline.Clip.of (cc0_transform_2 i a) (S1x64x1024.size a) (S4x64x4032.size a)).extent (S1x64x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x64x1024) (fun _ => 0) (fun a => (Pipeline.Clip.of (cc0_transform_2 i a) (S1x64x1024.size a) (S4x64x4032.size a)).extent (S1x64x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4032x1024.size a < S4x4032x4032.size a
  hwx0_3 : ∀ i : grid0.Coords, EltTy.bits .f32 = 32 ∨ (Rect.unit (s := S4x4032x4032) (fun a => cc0_transform_3 i a * S1x4032x1024.size a) (fun a => (Pipeline.Clip.of (cc0_transform_3 i a) (S1x4032x1024.size a) (S4x4032x4032.size a)).extent (S1x4032x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x4032x1024) (fun _ => 0) (fun a => (Pipeline.Clip.of (cc0_transform_3 i a) (S1x4032x1024.size a) (S4x4032x4032.size a)).extent (S1x4032x1024.size a)) fun a => (Nat.zero_add _).trans_le (Pipeline.Clip.extent_le (Pipeline.Clip.ok_of (hstart0_3 i a)))).WholeWords (EltTy.packing .f32)

variable [Facts₀]

def dot_S4032x64_S64x1024_S4032x1024_1_0_0_1_n_n : DotDims S4032x64 S64x1024 S4032x1024 where
  lhsContracting := [1]
  rhsContracting := [0]
  lhsNonContracting := [0]
  rhsNonContracting := [1]
  lhsBatch := []
  rhsBatch := []
  wf := dot_S4032x64_S64x1024_S4032x1024_1_0_0_1_n_n_wf

abbrev win0_0 : Pipeline.Window sig grid0 :=
  Pipeline.Window.ofSpec (Memref.whole main_v1) S1x4032x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4032x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S1x64x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v6) S1x4032x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x1x48x84 : Shape := ⟨5, ![4, 64, 1, 48, 84]⟩
abbrev S4x64x48x84 : Shape := ⟨4, ![4, 64, 48, 84]⟩
abbrev S4x64x4032 : Shape := ⟨3, ![4, 64, 4032]⟩
abbrev S_ : Shape := ⟨0, ![]⟩
abbrev S4x4032 : Shape := ⟨2, ![4, 4032]⟩
abbrev S4x4032x1 : Shape := ⟨3, ![4, 4032, 1]⟩
abbrev S4x4032x4032 : Shape := ⟨3, ![4, 4032, 4032]⟩
abbrev S4x1x4032 : Shape := ⟨3, ![4, 1, 4032]⟩

abbrev nBuf : Space → Nat
  | .hbm => 38
  | .vmem => 0
  | .smem => 0
  | _ => 0

abbrev bufTy : (tb : Table) → Fin (tcTables nBuf tb) → BufTy
  | .hbm, ⟨0, _⟩ => ⟨S4x64x1x48x84, .f32⟩
  | .hbm, ⟨1, _⟩ => ⟨S4x64x48x84, .f32⟩
  | .hbm, ⟨2, _⟩ => ⟨S4x64x4032, .f32⟩
  | .hbm, ⟨3, _⟩ => ⟨S4x64x4032, .f32⟩
  | .hbm, ⟨4, _⟩ => ⟨S4x64x4032, .f32⟩
  | .hbm, ⟨5, _⟩ => ⟨S_, .f32⟩
  | .hbm, ⟨6, _⟩ => ⟨S4x4032, .f32⟩
  | .hbm, ⟨7, _⟩ => ⟨S4x4032x1, .f32⟩
  | .hbm, ⟨8, _⟩ => ⟨S4x4032x4032, .f32⟩
  | .hbm, ⟨9, _⟩ => ⟨S_, .f32⟩
  | .hbm, ⟨10, _⟩ => ⟨S4x4032x4032, .f32⟩
  | .hbm, ⟨11, _⟩ => ⟨S4x4032x4032, .f32⟩
  | .hbm, ⟨12, _⟩ => ⟨S4x64x4032, .f32⟩
  | .hbm, ⟨13, _⟩ => ⟨S_, .f32⟩
  | .hbm, ⟨14, _⟩ => ⟨S4x4032, .f32⟩
  | .hbm, ⟨15, _⟩ => ⟨S4x1x4032, .f32⟩
  | .hbm, ⟨16, _⟩ => ⟨S4x4032x1, .f32⟩
  | .hbm, ⟨17, _⟩ => ⟨S4x4032x4032, .f32⟩
  | .hbm, ⟨18, _⟩ => ⟨S4x4032x4032, .f32⟩
  | .hbm, ⟨19, _⟩ => ⟨S4x4032x4032, .f32⟩
  | .hbm, ⟨20, _⟩ => ⟨S4x4032x4032, .f32⟩
  | .hbm, ⟨21, _⟩ => ⟨S_, .f32⟩
  | .hbm, ⟨22, _⟩ => ⟨S4x4032x4032, .f32⟩
  | .hbm, ⟨23, _⟩ => ⟨S4x4032x4032, .f32⟩
  | .hbm, ⟨24, _⟩ => ⟨S_, .f32⟩
  | .hbm, ⟨25, _⟩ => ⟨S4x4032, .f32⟩
  | .hbm, ⟨26, _⟩ => ⟨S_, .f32⟩
  | .hbm, ⟨27, _⟩ => ⟨S4x4032, .f32⟩
  | .hbm, ⟨28, _⟩ => ⟨S4x4032, .f32⟩
  | .hbm, ⟨29, _⟩ => ⟨S4x1x4032, .f32⟩
  | .hbm, ⟨30, _⟩ => ⟨S4x4032x4032, .f32⟩
  | .hbm, ⟨31, _⟩ => ⟨S4x4032x4032, .f32⟩
  | .hbm, ⟨32, _⟩ => ⟨S4x4032x4032, .f32⟩
  | .hbm, ⟨33, _⟩ => ⟨S_, .f32⟩
  | .hbm, ⟨34, _⟩ => ⟨S4x4032, .f32⟩
  | .hbm, ⟨35, _⟩ => ⟨S4x1x4032, .f32⟩
  | .hbm, ⟨36, _⟩ => ⟨S4x4032x4032, .f32⟩
  | .hbm, ⟨37, _⟩ => ⟨S4x4032x4032, .f32⟩
  | _, _ => ⟨S4x64x1x48x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S4x64x1x48x84_S4x64x4032 : S4x64x1x48x84.ShapeCasts S4x64x4032
  shapeCasts_S4x64x48x84_S4x64x4032 : S4x64x48x84.ShapeCasts S4x64x4032
  reducesTo_S4x64x4032_S4x4032_d1 : S4x64x4032.ReducesTo [1] S4x4032
  h_S_ : 0 < S_.numel
  bcast_S4x4032_S4x4032x1_0_1 : S4x4032.BroadcastsInDim S4x4032x1 (![0, 1] : Fin 2 → Fin S4x4032x1.rank)
  bcast_S_S4x4032x4032 : S_.BroadcastsInDim S4x4032x4032 (![] : Fin 0 → Fin S4x4032x4032.rank)
  bcast_S4x4032_S4x1x4032_0_2 : S4x4032.BroadcastsInDim S4x1x4032 (![0, 2] : Fin 2 → Fin S4x1x4032.rank)
  bcast_S4x4032x1_S4x4032x4032_0_1_2 : S4x4032x1.BroadcastsInDim S4x4032x4032 (![0, 1, 2] : Fin 3 → Fin S4x4032x4032.rank)
  bcast_S4x1x4032_S4x4032x4032_0_1_2 : S4x1x4032.BroadcastsInDim S4x4032x4032 (![0, 1, 2] : Fin 3 → Fin S4x4032x4032.rank)
  reducesTo_S4x4032x4032_S4x4032_d1 : S4x4032x4032.ReducesTo [1] S4x4032
  bcast_S_S4x4032 : S_.BroadcastsInDim S4x4032 (![] : Fin 0 → Fin S4x4032.rank)
  dot_S4x64x4032_S4x64x4032_S4x4032x4032_1_1_2_2_0_0_wf : DotDims.WF S4x64x4032 S4x64x4032 S4x4032x4032 [1] [1] [2] [2] [0] [0]

variable [Facts₀]

def dot_S4x64x4032_S4x64x4032_S4x4032x4032_1_1_2_2_0_0 : DotDims S4x64x4032 S4x64x4032 S4x4032x4032 where
  lhsContracting := [1]
  rhsContracting := [1]
  lhsNonContracting := [2]
  rhsNonContracting := [2]
  lhsBatch := [0]
  rhsBatch := [0]
  wf := dot_S4x64x4032_S4x64x4032_S4x4032x4032_1_1_2_2_0_0_wf

class Facts : Prop extends Facts₀ where

variable [Facts]
-- ==== Proof.BodyBits.lean ====
/-
  The kernel's body as a Hoare triple, at any float instance.

  At one grid point the body is handed four whole staging buffers: the key block [1, 4032, 64], the keys' squared norms
  [1, 4032, 1], the query tile [1, 64, 1024] and the output tile [1, 4032, 1024]. It loads the first three whole, loads the
  output tile (a value it never uses), and stores ONE value into the whole output tile: the payload, a pure function
  of the three loaded blocks. So the three inputs' buffers end as they began and the output's buffer ends holding the
  payload of what the other three held, whatever it held before.
-/
import proofs.«158698_j6219112644708_2_alg».proof.Proof.Gen.Kernel.Launch
import proofs.«158698_j6219112644708_2_alg».proof.Proof.Gen.Kernel.Skeleton
import proofs.«158698_j6219112644708_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accesses: each is the whole of its buffer (offset zero, the buffer's own extents). -/
abbrev rKeys : Rect S1x4032x64 := Rect.unit (s := S1x4032x64) ![0, 0, 0] S1x4032x64.size inb_S1x4032x64_S1x4032x64_0_0_0
abbrev rNorm : Rect S1x4032x1 := Rect.unit (s := S1x4032x1) ![0, 0, 0] S1x4032x1.size inb_S1x4032x1_S1x4032x1_0_0_0
abbrev rQuery : Rect S1x64x1024 := Rect.unit (s := S1x64x1024) ![0, 0, 0] S1x64x1024.size inb_S1x64x1024_S1x64x1024_0_0_0
abbrev rOut : Rect S1x4032x1024 := Rect.unit (s := S1x4032x1024) ![0, 0, 0] S1x4032x1024.size inb_S1x4032x1024_S1x4032x1024_0_0_0

theorem zero3 : (![0, 0, 0] : Fin 3 → Nat) = fun _ => 0 := funext fun a => by
  match a with
  | ⟨0, _⟩ => rfl
  | ⟨1, _⟩ => rfl
  | ⟨2, _⟩ => rfl

/-- What the output tile's buffer holds after the body, from what the three input buffers hold: its one store. -/
def outTile (x0 : Vec F S1x4032x64 .f32) (x1 : Vec F S1x4032x1 .f32) (x2 : Vec F S1x64x1024 .f32) : Vec F S1x4032x1024 .f32 :=
  View.canon [⟨rOut, k0_pay1 (View.ld x0 rKeys) (View.ld x1 rNorm) (View.ld x2 rQuery)⟩]

/-- The store is of the whole tile and the loads are of the whole blocks: the tile ends at the payload of the blocks. -/
theorem outTile_eq [∀ e, Nonempty (Elt F e)] (x0 : Vec F S1x4032x64 .f32) (x1 : Vec F S1x4032x1 .f32) (x2 : Vec F S1x64x1024 .f32) :
    outTile x0 x1 x2 = k0_pay1 x0 x1 x2 := by
  unfold outTile
  rw [View.canon_unit_zero zero3]
  simp only [View.ld_unit_zero (S := S1x4032x64) zero3, View.ld_unit_zero (S := S1x4032x1) zero3,
    View.ld_unit_zero (S := S1x64x1024) zero3]

/-- The one store covers the tile. -/
theorem cover_out (p0 : Vec F S1x4032x1024 .f32) (y : S1x4032x1024.Idx) :
    ∃ pc ∈ ([⟨rOut, p0⟩] : List (View.Piece (Elt F) S1x4032x1024 .f32)), y ∈ pc.1.set :=
  View.cover_of_tiled [⟨rOut, p0⟩] S1x4032x1024.size (by rfl) y

set_option maxHeartbeats 1000000 in
/-- The body on whole staging buffers: the inputs' at contents `x0`, `x1`, `x2` and the output's at anything run to the
    continuation holding the inputs' as they were and the output's at `outTile x0 x1 x2`. -/
theorem sound_kernel (c : Dev nD) (E : Set ℕ) (i : grid0.Coords)
    (arg2 : Memref sig .tc .vmem S1x4032x64 .f32) (harg2 : arg2.IsWhole) (arg3 : Memref sig .tc .vmem S1x4032x1 .f32) (harg3 : arg3.IsWhole)
    (arg4 : Memref sig .tc .vmem S1x64x1024 .f32) (harg4 : arg4.IsWhole) (arg5 : Memref sig .tc .vmem S1x4032x1024 .f32) (harg5 : arg5.IsWhole)
    (x0 : Vec F S1x4032x64 .f32) (x1 : Vec F S1x4032x1 .f32) (x2 : Vec F S1x64x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1 x2)) -∗ K ⟨⟩))
      ⊢ wp frame (wpE (defs₀ (F := F)) Variants.none c none) E (cc0__knn_softmax_kernel i arg2 harg2 arg3 harg3 arg4 harg4 arg5 harg5) K := by
  simp only [cc0__knn_softmax_kernel_eq_skeleton]; unfold cc0__knn_softmax_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Body

end
-- ==== Proof.FrameBits.lean ====
/-
  The frame of the kernel as printed (the word-level instance, and any other).

  The frame claim says nothing about what the output array ends holding, and the body neither faults nor loops whatever
  its four staging buffers hold: it loads them whole and stores one whole tile. So the run is taken over proof data
  that FORGET every window: each staging buffer is handed to the body at some contents and taken back at some contents.
  The two argument arrays are no window's array (the windows stage arrays the host operations computed from them), so
  they pass by the region untouched and end at their launch contents.
-/
import proofs.«158698_j6219112644708_2_alg».proof.Proof.BodyBits
import proofs.«158698_j6219112644708_2_alg».proof.Proof.Gen.Kernel.Frame

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
abbrev allForgotten : Fin cfg0.W → Bool := fun _ => true

/-- The proof data: the arrays as the region finds them; of the staging buffers' contents nothing is named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is handed at point `t`, and what it hands back: the invariant, what the core owes, and the four
    current staging buffers at some contents each. -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- The body at any point, every buffer at some contents before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩⟩
  iapply (sound_kernel (F := F) c Set.univ _ _ _ _ _ _ _ _ _ X0 X1 X2 _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]; · iexists X0; iexact H0
  isplitl [H1]; · iexists X1; iexact H1
  isplitl [H2]; · iexists X2; iexact H2
  iexists _; iexact H3

/-- The library's body obligation with every window forgotten. -/
theorem body_obligation (c : Dev nD) :
    BodyObligationLoose (dats (F := F) m 0 c) (defs₀ (F := F)) Variants.none () Set.univ allForgotten := fun t => by
  simp only [bigSep_W0, allForgotten]
  exact sound_body m c t

set_option backward.isDefEq.respectTransparency.types false in
/-- Every weakly fair execution of the program terminates, nothing faulting, every windowed array at some contents the
    write-backs may have left and every other unscoped buffer as the region found it. -/
theorem run_main : θ_run defs (onTc (τ := τ) (main (F := F))) (s₀ m ρ)
    (Pipeline.RDat.FramePost (cfgs 0) (fun c => (dats m 0 c).toRForget allForgotten) (V m)) :=
  Pipeline.RDat.θ_run_frame cfgs (0 : Fin 1) launch0 defs₀ Variants.none (fun c => (dats m 0 c).toRForget allForgotten) m ρ main
    (hbody := fun c => (body_obligation m c).toRForget)
    (hshare := fun c => ((dats m 0 c).toRForget allForgotten).share_full fun _ => rfl)
    (howed := fun _ _ => rfl) (V := V m) (hmain := hmain m Variants.none) (hA := A_eq m) (hΦ := fun _ _ => rfl)

/-- The frame: the program runs and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.Kernel.FrameProof

end
-- ==== Proof.BodyIdeal.lean ====
/-
  The kernel's body as a Hoare triple, at any float instance.

  At one grid point the body is handed four whole staging buffers: the key block [1, 4032, 64], the keys' squared norms
  [1, 4032, 1], the query tile [1, 64, 1024] and the output tile [1, 4032, 1024]. It loads the first three whole, loads the
  output tile (a value it never uses), and stores ONE value into the whole output tile: the payload, a pure function
  of the three loaded blocks. So the three inputs' buffers end as they began and the output's buffer ends holding the
  payload of what the other three held, whatever it held before.
-/
import proofs.«158698_j6219112644708_2_alg».proof.Proof.Gen.KernelIdeal.Launch
import proofs.«158698_j6219112644708_2_alg».proof.Proof.Gen.KernelIdeal.Skeleton
import proofs.«158698_j6219112644708_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accesses: each is the whole of its buffer (offset zero, the buffer's own extents). -/
abbrev rKeys : Rect S1x4032x64 := Rect.unit (s := S1x4032x64) ![0, 0, 0] S1x4032x64.size inb_S1x4032x64_S1x4032x64_0_0_0
abbrev rNorm : Rect S1x4032x1 := Rect.unit (s := S1x4032x1) ![0, 0, 0] S1x4032x1.size inb_S1x4032x1_S1x4032x1_0_0_0
abbrev rQuery : Rect S1x64x1024 := Rect.unit (s := S1x64x1024) ![0, 0, 0] S1x64x1024.size inb_S1x64x1024_S1x64x1024_0_0_0
abbrev rOut : Rect S1x4032x1024 := Rect.unit (s := S1x4032x1024) ![0, 0, 0] S1x4032x1024.size inb_S1x4032x1024_S1x4032x1024_0_0_0

theorem zero3 : (![0, 0, 0] : Fin 3 → Nat) = fun _ => 0 := funext fun a => by
  match a with
  | ⟨0, _⟩ => rfl
  | ⟨1, _⟩ => rfl
  | ⟨2, _⟩ => rfl

/-- What the output tile's buffer holds after the body, from what the three input buffers hold: its one store. -/
def outTile (x0 : Vec F S1x4032x64 .f32) (x1 : Vec F S1x4032x1 .f32) (x2 : Vec F S1x64x1024 .f32) : Vec F S1x4032x1024 .f32 :=
  View.canon [⟨rOut, k0_pay1 (View.ld x0 rKeys) (View.ld x1 rNorm) (View.ld x2 rQuery)⟩]

/-- The store is of the whole tile and the loads are of the whole blocks: the tile ends at the payload of the blocks. -/
theorem outTile_eq [∀ e, Nonempty (Elt F e)] (x0 : Vec F S1x4032x64 .f32) (x1 : Vec F S1x4032x1 .f32) (x2 : Vec F S1x64x1024 .f32) :
    outTile x0 x1 x2 = k0_pay1 x0 x1 x2 := by
  unfold outTile
  rw [View.canon_unit_zero zero3]
  simp only [View.ld_unit_zero (S := S1x4032x64) zero3, View.ld_unit_zero (S := S1x4032x1) zero3,
    View.ld_unit_zero (S := S1x64x1024) zero3]

/-- The one store covers the tile. -/
theorem cover_out (p0 : Vec F S1x4032x1024 .f32) (y : S1x4032x1024.Idx) :
    ∃ pc ∈ ([⟨rOut, p0⟩] : List (View.Piece (Elt F) S1x4032x1024 .f32)), y ∈ pc.1.set :=
  View.cover_of_tiled [⟨rOut, p0⟩] S1x4032x1024.size (by rfl) y

set_option maxHeartbeats 1000000 in
/-- The body on whole staging buffers: the inputs' at contents `x0`, `x1`, `x2` and the output's at anything run to the
    continuation holding the inputs' as they were and the output's at `outTile x0 x1 x2`. -/
theorem sound_kernel (c : Dev nD) (E : Set ℕ) (i : grid0.Coords)
    (arg2 : Memref sig .tc .vmem S1x4032x64 .f32) (harg2 : arg2.IsWhole) (arg3 : Memref sig .tc .vmem S1x4032x1 .f32) (harg3 : arg3.IsWhole)
    (arg4 : Memref sig .tc .vmem S1x64x1024 .f32) (harg4 : arg4.IsWhole) (arg5 : Memref sig .tc .vmem S1x4032x1024 .f32) (harg5 : arg5.IsWhole)
    (x0 : Vec F S1x4032x64 .f32) (x1 : Vec F S1x4032x1 .f32) (x2 : Vec F S1x64x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile x0 x1 x2)) -∗ K ⟨⟩))
      ⊢ wp frame (wpE (defs₀ (F := F)) Variants.none c none) E (cc0__knn_softmax_kernel i arg2 harg2 arg3 harg3 arg4 harg4 arg5 harg5) K := by
  simp only [cc0__knn_softmax_kernel_eq_skeleton]; unfold cc0__knn_softmax_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Body

end
-- ==== Proof.Spec.lean ====
/-
  The mathematics of the two programs, free of either program's text.

  Keys `mk` and queries `qk` are arrays [batch 4, channel 64, position 4032] of extended reals. For a batch `b`, a
  memory position `n` and a query position `j` the affinity is minus the squared distance of the two channel vectors,
  scaled by 1/8 = 1/sqrt 64; expanded, it is (-|mk_n|^2 + 2 <mk_n, qk_j> - |qk_j|^2) / 8. The result is the softmax of
  the affinity over the memory axis `n`, column by column: exp (f n - max f) / sum_n' exp (f n' - max f).

  The reference computes exactly that. The kernel leaves out the term |qk_j|^2 / 8, which does not depend on `n`, and
  multiplies by the literal 0.125 where the reference divides by the literal 8. A column's softmax does not change when
  a real constant is subtracted from every entry of the column: the maximum moves by the same constant, so the
  differences f n - max f are the same. That is the one law joining the two sides (`colSoftmax_sub_const`), and it needs
  the entries to be real numbers: on the extended reals (x - d) - (M - d) = x - M fails when d is infinite.
-/
import Idealize.ShloMosaic.PureOps.Ideal
import Idealize.ShloMosaic.Lib.ValueIdx

noncomputable section

namespace Cert.KnnSpec

open Idealize.ShloMosaic Idealize.ShloMosaic.ValueIdx

/-- Keys or queries flattened over their spatial positions: [batch, channel, position]. -/
abbrev SKeys : Shape := ⟨3, ![4, 64, 4032]⟩
/-- The affinity and its softmax: [batch, memory position, query position]. -/
abbrev SAff : Shape := ⟨3, ![4, 4032, 4032]⟩

/-- The literals 2, 0.125 and 8 as both programs spell them, and minus infinity. -/
def two : EReal := Ideal.ofBits .f32 0x40000000#32
def eighth : EReal := Ideal.ofBits .f32 0x3E000000#32
def eight : EReal := Ideal.ofBits .f32 0x41000000#32

/-- The squared norm of the channel vector at position `p` of batch `b`, summed from zero as a host sum is. -/
def sqNorm (x : SKeys.Idx → EReal) (b : Fin 4) (p : Fin 4032) : EReal :=
  0 + ∑ k : Fin 64, x (ix3 b k p) * x (ix3 b k p)

/-- The inner product of key `n` and query `j` of batch `b` over the channels. -/
def inner (mk qk : SKeys.Idx → EReal) (b : Fin 4) (n j : Fin 4032) : EReal :=
  ∑ k : Fin 64, mk (ix3 b k n) * qk (ix3 b k j)

/-- The softmax of a column `f` of 4032 extended reals, read at row `n`: the maximum is the fold of `max` from minus
    infinity, the quotient the ideal division. -/
def colSoftmax (f : Fin 4032 → EReal) (n : Fin 4032) : EReal :=
  Ideal.div (Ideal.exp (f n - (Finset.univ : Finset (Fin 4032)).fold max ⊥ f))
    (∑ n' : Fin 4032, Ideal.exp (f n' - (Finset.univ : Finset (Fin 4032)).fold max ⊥ f))

/-- The kernel's affinity column for batch `b` and query `j`: the query's own norm left out, the scale a product. -/
def scoreKernel (mk qk : SKeys.Idx → EReal) (b : Fin 4) (j : Fin 4032) (n : Fin 4032) : EReal :=
  ((0 - sqNorm mk b n) + two * inner mk qk b n j) * eighth

/-- The reference's affinity column: the full squared distance, the scale a quotient. -/
def scoreRef (mk qk : SKeys.Idx → EReal) (b : Fin 4) (j : Fin 4032) (n : Fin 4032) : EReal :=
  Ideal.div (((-(sqNorm mk b n)) + two * inner mk qk b n j) - sqNorm qk b j) eight

/-- What the kernel computes, as one function of the flattened keys and queries. -/
def kernelSpec (mk qk : SKeys.Idx → EReal) (i : SAff.Idx) : EReal :=
  colSoftmax (scoreKernel mk qk (i 0) (i 2)) (i 1)

/-- What the reference computes. -/
def refSpec (mk qk : SKeys.Idx → EReal) (i : SAff.Idx) : EReal :=
  colSoftmax (scoreRef mk qk (i 0) (i 2)) (i 1)

end Cert.KnnSpec

end
-- ==== Proof.SpecLaw.lean ====
/-
  The literals of the specification as real numbers, and the one law joining the kernel's affinity to the
  reference's: a column's softmax is unchanged when a real constant is subtracted from every entry.

  For real keys and queries both affinity columns are real. The reference's column is the kernel's column minus
  |qk_j|^2 / 8, a real number that does not depend on the memory position, so the two softmaxes agree.
-/
import proofs.«158698_j6219112644708_2_alg».proof.Proof.Spec
import Mathlib.Data.EReal.Operations
import Mathlib.Data.Finset.Fold
import Mathlib.Tactic.Ring
import Mathlib.Tactic.NormNum

noncomputable section

namespace Cert.KnnSpec

open Idealize.ShloMosaic Idealize.ShloMosaic.ValueIdx

/-! ### The literals -/

/-- The pattern 0x40000000 denotes the real 2. -/
theorem two_eq : two = ((2 : ℝ) : EReal) := by
  simp [two, Ideal.ofBits, Ideal.ieee, -EReal.coe_mul]; norm_num

/-- The pattern 0x3E000000 denotes the real 1/8. -/
theorem eighth_eq : eighth = ((1 / 8 : ℝ) : EReal) := by
  simp [eighth, Ideal.ofBits, Ideal.ieee, -EReal.coe_mul]; norm_num

/-- The pattern 0x41000000 denotes the real 8. -/
theorem eight_eq : eight = ((8 : ℝ) : EReal) := by
  simp [eight, Ideal.ofBits, Ideal.ieee, -EReal.coe_mul]; norm_num

/-- The pattern 0xFF800000 denotes minus infinity. -/
theorem negInf_eq : Ideal.ofBits .f32 0xFF800000#32 = (⊥ : EReal) := by
  simp [Ideal.ofBits, Ideal.ieee]

/-- The pattern 0x7F800000 denotes plus infinity. -/
theorem posInf_eq : Ideal.ofBits .f32 0x7F800000#32 = (⊤ : EReal) := by
  simp [Ideal.ofBits, Ideal.ieee]

/-! ### Sums of real numbers inside the extended reals -/

/-- A finite sum of coerced reals is the coercion of the real sum. -/
theorem coe_sum {ι : Type} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The real squared norm of the channel vector at position `p` of batch `b`. -/
def sqNormR (x : SKeys.Idx → ℝ) (b : Fin 4) (p : Fin 4032) : ℝ :=
  ∑ k : Fin 64, x (ix3 b k p) * x (ix3 b k p)

/-- The real inner product of key `n` and query `j` of batch `b`. -/
def innerR (x y : SKeys.Idx → ℝ) (b : Fin 4) (n j : Fin 4032) : ℝ :=
  ∑ k : Fin 64, x (ix3 b k n) * y (ix3 b k j)

/-- On real entries the squared norm is the coercion of the real squared norm. -/
theorem sqNorm_coe (x : SKeys.Idx → ℝ) (b : Fin 4) (p : Fin 4032) :
    sqNorm (fun i => (x i : EReal)) b p = ((sqNormR x b p : ℝ) : EReal) := by
  simp only [sqNorm, sqNormR, ← EReal.coe_mul, coe_sum, zero_add]

/-- On real entries the inner product is the coercion of the real inner product. -/
theorem inner_coe (x y : SKeys.Idx → ℝ) (b : Fin 4) (n j : Fin 4032) :
    inner (fun i => (x i : EReal)) (fun i => (y i : EReal)) b n j = ((innerR x y b n j : ℝ) : EReal) := by
  simp only [inner, innerR, ← EReal.coe_mul, coe_sum]

/-- The kernel's affinity as a real number. -/
def scoreR (x y : SKeys.Idx → ℝ) (b : Fin 4) (j n : Fin 4032) : ℝ :=
  ((0 - sqNormR x b n) + 2 * innerR x y b n j) * (1 / 8)

/-- On real entries the kernel's affinity is real. -/
theorem scoreKernel_coe (x y : SKeys.Idx → ℝ) (b : Fin 4) (j n : Fin 4032) :
    scoreKernel (fun i => (x i : EReal)) (fun i => (y i : EReal)) b j n = ((scoreR x y b j n : ℝ) : EReal) := by
  rw [scoreKernel, sqNorm_coe, inner_coe, two_eq, eighth_eq, scoreR]
  push_cast
  rfl

/-- On real entries the reference's affinity is the kernel's minus the query's squared norm over 8. -/
theorem scoreRef_coe (x y : SKeys.Idx → ℝ) (b : Fin 4) (j n : Fin 4032) :
    scoreRef (fun i => (x i : EReal)) (fun i => (y i : EReal)) b j n
      = ((scoreR x y b j n : ℝ) : EReal) - ((sqNormR y b j * (1 / 8) : ℝ) : EReal) := by
  rw [scoreRef, sqNorm_coe, sqNorm_coe, inner_coe, two_eq, eight_eq,
    Ideal.div_coe (by norm_num : (8 : ℝ) ≠ 0), scoreR]
  norm_cast
  ring

/-! ### The law -/

/-- Subtracting a real constant commutes with the maximum of two extended reals. -/
theorem max_sub_coe (d : ℝ) (x y : EReal) : max x y - (d : EReal) = max (x - (d : EReal)) (y - (d : EReal)) := by
  have hmono : Monotone (fun t : EReal => t - (d : EReal)) := fun _ _ h => EReal.sub_le_sub h le_rfl
  exact hmono.map_max

/-- The maximum of a column moves by the constant subtracted from its entries. -/
theorem fold_max_sub_coe (f : Fin 4032 → EReal) (d : ℝ) :
    (Finset.univ : Finset (Fin 4032)).fold max ⊥ (fun n => f n - (d : EReal))
      = (Finset.univ : Finset (Fin 4032)).fold max ⊥ f - (d : EReal) := by
  have h := Finset.fold_hom (op := max) (op' := max) (s := (Finset.univ : Finset (Fin 4032)))
    (b := (⊥ : EReal)) (f := f) (m := fun t : EReal => t - (d : EReal)) (max_sub_coe d)
  simpa only [EReal.bot_sub] using h

/-- For reals `x`, `d` and any extended real `M`, shifting both by `d` leaves the difference unchanged. -/
theorem sub_sub_sub_coe (x d : ℝ) (M : EReal) :
    ((x : EReal) - (d : EReal)) - (M - (d : EReal)) = (x : EReal) - M := by
  induction M using EReal.rec with
  | bot => rw [EReal.bot_sub, ← EReal.coe_sub, EReal.coe_sub_bot, EReal.coe_sub_bot]
  | coe M => norm_cast; ring
  | top => rw [EReal.top_sub_coe, ← EReal.coe_sub, EReal.sub_top, EReal.sub_top]

/-- A column of reals has the same softmax after a real constant is subtracted from every entry. -/
theorem colSoftmax_sub_const (g : Fin 4032 → ℝ) (d : ℝ) :
    colSoftmax (fun n => (g n : EReal) - (d : EReal)) = colSoftmax (fun n => (g n : EReal)) := by
  funext n
  simp only [colSoftmax, fold_max_sub_coe (fun n => (g n : EReal)) d, sub_sub_sub_coe]

/-! ### The two specifications agree on real inputs -/

/-- The two specifications agree when the entries are real numbers given as functions. -/
theorem kernelSpec_eq_refSpec_coe (x y : SKeys.Idx → ℝ) :
    kernelSpec (fun i => (x i : EReal)) (fun i => (y i : EReal))
      = refSpec (fun i => (x i : EReal)) (fun i => (y i : EReal)) := by
  funext i
  have hk : scoreKernel (fun i => (x i : EReal)) (fun i => (y i : EReal)) (i 0) (i 2)
      = fun n => ((scoreR x y (i 0) (i 2) n : ℝ) : EReal) := funext fun n => scoreKernel_coe x y (i 0) (i 2) n
  have hr : scoreRef (fun i => (x i : EReal)) (fun i => (y i : EReal)) (i 0) (i 2)
      = fun n => ((scoreR x y (i 0) (i 2) n : ℝ) : EReal) - ((sqNormR y (i 0) (i 2) * (1 / 8) : ℝ) : EReal) :=
    funext fun n => scoreRef_coe x y (i 0) (i 2) n
  rw [kernelSpec, refSpec, hk, hr, colSoftmax_sub_const]

/-- The kernel's specification equals the reference's when every key and query entry is a real number. -/
theorem kernelSpec_eq_refSpec (mk qk : SKeys.Idx → EReal) (hmk : ∀ i, ∃ r : ℝ, mk i = (r : EReal))
    (hqk : ∀ i, ∃ r : ℝ, qk i = (r : EReal)) : kernelSpec mk qk = refSpec mk qk := by
  choose mkr hmkr using hmk
  choose qkr hqkr using hqk
  have e1 : mk = fun i => (mkr i : EReal) := funext hmkr
  have e2 : qk = fun i => (qkr i : EReal) := funext hqkr
  rw [e1, e2]
  exact kernelSpec_eq_refSpec_coe mkr qkr

end Cert.KnnSpec

end
-- ==== Proof.Payload.lean ====
/-
  The kernel's payload read at one entry of the output tile, at the ideal instance.

  The payload is a pure function of the key block [1, 4032, 64], the norms [1, 4032, 1] and the query tile [1, 64, 1024].
  Dropping the unit axes, it first forms the affinity tile A[n, q] = ((0 - norm n) + 2 * sum_k key[n, k] * query[k, q]) * 0.125,
  then takes the softmax of every COLUMN q of A over its 4032 rows: the column's maximum, exp (A - max), the column's sum,
  the quotient. Every reduction runs along a column, so the entry (n, q) of the result depends on the query tile only
  through the query's own column q. That is what makes the columns past the array's end harmless.
-/
import proofs.«158698_j6219112644708_2_alg».proof.Proof.Gen.KernelIdeal.Skeleton
import proofs.«158698_j6219112644708_2_alg».proof.Proof.SpecLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Facts₀
open Cert.KernelIdeal.Gen (k0_pay1)
open Idealize.ShloMosaic Idealize.ShloMosaic.ValueIdx Cert.KnnSpec

variable [Facts]

/-! ## The two stages as functions of plain matrices -/

/-- The affinity tile from the key matrix, the norm column and the query matrix. -/
def affTile (v1 : FVec Ideal S4032x64 .f32) (v3 : FVec Ideal S4032x1 .f32) (v5 : FVec Ideal S64x1024 .f32) : FVec Ideal S4032x1024 .f32 :=
  mulf (addf (broadcastTo S4032x1024 (subf (broadcast S4032x1 (Scalar.ofBits (F := Ideal) .f32 0x00000000#32)) v3) broadcasts_S4032x1_S4032x1024)
      (mulf (broadcast S4032x1024 (Scalar.ofBits (F := Ideal) .f32 0x40000000#32))
        (matmul dot_S4032x64_S64x1024_S4032x1024_1_0_0_1_n_n none v1 v5 (constant (F := Ideal) S4032x1024 .f32 0x00000000#32))))
    (broadcast S4032x1024 (Scalar.ofBits (F := Ideal) .f32 0x3E000000#32))

/-- exp (A - column maximum). -/
def expTile (A : FVec Ideal S4032x1024 .f32) : FVec Ideal S4032x1024 .f32 :=
  exp (subf A (broadcastTo S4032x1024 (shapeCast S1x1024
    (multiReduction (F := Ideal) .maximumf [0] S1024 A 0xFF800000#32 reduces_S4032x1024_S1024 (.inl rfl) rfl) shapeCasts_S1024_S1x1024)
    broadcasts_S1x1024_S4032x1024))

/-- The column softmax of a tile. -/
def softTile (A : FVec Ideal S4032x1024 .f32) : FVec Ideal S4032x1024 .f32 :=
  divf (expTile A) (broadcastTo S4032x1024 (shapeCast S1x1024
    (multiReduction (F := Ideal) .add [0] S1024 (expTile A) 0x00000000#32 reduces_S4032x1024_S1024 (.inl rfl) rfl) shapeCasts_S1024_S1x1024)
    broadcasts_S1x1024_S4032x1024)

/-- The payload is the two stages between the casts that drop and restore the unit axis. -/
theorem pay_eq (v0 : Vec Ideal S1x4032x64 .f32) (v2 : Vec Ideal S1x4032x1 .f32) (v4 : Vec Ideal S1x64x1024 .f32) :
    k0_pay1 (F := Ideal) v0 v2 v4
      = shapeCast S1x4032x1024 (softTile (affTile (shapeCast S4032x64 v0 shapeCasts_S1x4032x64_S4032x64)
          (shapeCast S4032x1 v2 shapeCasts_S1x4032x1_S4032x1) (shapeCast S64x1024 v4 shapeCasts_S1x64x1024_S64x1024)))
        shapeCasts_S4032x1024_S1x4032x1024 := rfl

/-! ## Layout operations at an index -/

/-- A column [4032, 1] broadcast along the rows of [4032, 1024] reads, at (n, q), the column at n. -/
theorem bcastCol_apply (x : FVec Ideal S4032x1 .f32) (n : Fin 4032) (q : Fin 1024) :
    broadcastTo S4032x1024 x broadcasts_S4032x1_S4032x1024 (ix2 n q) = x (ix2 n (0 : Fin 1)) := by
  refine broadcastTo_apply x broadcasts_S4032x1_S4032x1024 (ix2 n q) (ix2 n (0 : Fin 1)) fun ax => ?_
  match ax with
  | ⟨0, _⟩ =>
    show n.val = if (4032 : ℕ) = 1 then 0 else n.val
    rw [if_neg (by decide)]
  | ⟨1, _⟩ =>
    show (0 : ℕ) = if (1 : ℕ) = 1 then 0 else q.val
    rw [if_pos rfl]

/-- A row [1024] cast to [1, 1024] and broadcast down the rows of [4032, 1024] reads, at (n, q), the row at q. -/
theorem bcastRow_apply (r : FVec Ideal S1024 .f32) (n : Fin 4032) (q : Fin 1024) :
    broadcastTo S4032x1024 (shapeCast S1x1024 r shapeCasts_S1024_S1x1024) broadcasts_S1x1024_S4032x1024 (ix2 n q) = r (ix1 q) :=
  (broadcastTo_1b_ab_apply (shapeCast S1x1024 r shapeCasts_S1024_S1x1024) broadcasts_S1x1024_S4032x1024 n q).trans
    (shapeCast_a_1a_apply r shapeCasts_S1024_S1x1024 (0 : Fin 1) q)

/-- The index a reduction over the rows inserts: row k of column q. -/
theorem lift_eq (q : Fin 1024) (k : Fin 4032) :
    reduces_S4032x1024_S1024.lift (ix1 q) k = (ix2 k q : S4032x1024.Idx) :=
  funext fun a => Fin.ext (by
    match a with
    | ⟨0, _⟩ => rfl
    | ⟨1, _⟩ => rfl)

/-- The maximum over the rows, at column q: the fold of max from the literal minus infinity over the column. -/
theorem colMax_apply (A : FVec Ideal S4032x1024 .f32) (hφ : FKind.Formats .f32) (hacc : (0xFF800000#32 : BitVec 32) = FKind.maximumf.neutral .f32 hφ) (q : Fin 1024) :
    multiReduction (F := Ideal) .maximumf [0] S1024 A 0xFF800000#32 reduces_S4032x1024_S1024 hφ hacc (ix1 q)
      = (Finset.univ : Finset (Fin 4032)).fold max (⊥ : EReal) (fun k => A (ix2 k q)) := by
  refine (Ideal.multiReduction_maximumf_single A 0xFF800000#32 reduces_S4032x1024_S1024 hφ hacc (ix1 q)).trans ?_
  show (Finset.univ : Finset (Fin 4032)).fold max (Ideal.ofBits .f32 0xFF800000#32) (fun k => A (reduces_S4032x1024_S1024.lift (ix1 q) k)) = _
  rw [negInf_eq, show (fun k => A (reduces_S4032x1024_S1024.lift (ix1 q) k)) = fun k => A (ix2 k q) from
    funext fun k => congrArg A (lift_eq q k)]
  rfl

/-- The sum over the rows, at column q. -/
theorem colSum_apply (E : FVec Ideal S4032x1024 .f32) (hφ : FKind.Formats .f32) (hacc : (0x00000000#32 : BitVec 32) = FKind.add.neutral .f32 hφ) (q : Fin 1024) :
    multiReduction (F := Ideal) .add [0] S1024 E 0x00000000#32 reduces_S4032x1024_S1024 hφ hacc (ix1 q)
      = ∑ k : Fin 4032, E (ix2 k q) := by
  refine (Ideal.multiReduction_add_single E 0x00000000#32 reduces_S4032x1024_S1024 hφ hacc (ix1 q)).trans ?_
  exact Finset.sum_congr rfl fun k _ => congrArg E (lift_eq q k)

/-! ## The matrix product at an index -/

theorem lhs0 (i : S4032x1024.Idx) (p : dot_S4032x64_S64x1024_S4032x1024_1_0_0_1_n_n.contr.Idx) : (dot_S4032x64_S64x1024_S4032x1024_1_0_0_1_n_n.lhsIdx i p 0).val = (i 0).val := by
  unfold DotDims.lhsIdx
  rw [dif_neg (show ¬(0 : Fin S4032x64.rank) ∈ dot_S4032x64_S64x1024_S4032x1024_1_0_0_1_n_n.lhsBatch by decide), dif_pos (show (0 : Fin S4032x64.rank) ∈ dot_S4032x64_S64x1024_S4032x1024_1_0_0_1_n_n.lhsNonContracting by decide)]
  rfl
theorem lhs1 (i : S4032x1024.Idx) (p : dot_S4032x64_S64x1024_S4032x1024_1_0_0_1_n_n.contr.Idx) : (dot_S4032x64_S64x1024_S4032x1024_1_0_0_1_n_n.lhsIdx i p 1).val = (p ⟨0, by decide⟩).val :=
  dot_S4032x64_S64x1024_S4032x1024_1_0_0_1_n_n.lhsIdx_val_of_single rfl i p
theorem rhs0 (i : S4032x1024.Idx) (p : dot_S4032x64_S64x1024_S4032x1024_1_0_0_1_n_n.contr.Idx) : (dot_S4032x64_S64x1024_S4032x1024_1_0_0_1_n_n.rhsIdx i p 0).val = (p ⟨0, by decide⟩).val :=
  dot_S4032x64_S64x1024_S4032x1024_1_0_0_1_n_n.rhsIdx_val_of_single rfl i p
theorem rhs1 (i : S4032x1024.Idx) (p : dot_S4032x64_S64x1024_S4032x1024_1_0_0_1_n_n.contr.Idx) : (dot_S4032x64_S64x1024_S4032x1024_1_0_0_1_n_n.rhsIdx i p 1).val = (i 1).val := by
  unfold DotDims.rhsIdx
  rw [dif_neg (show ¬(1 : Fin S64x1024.rank) ∈ dot_S4032x64_S64x1024_S4032x1024_1_0_0_1_n_n.rhsBatch by decide), dif_pos (show (1 : Fin S64x1024.rank) ∈ dot_S4032x64_S64x1024_S4032x1024_1_0_0_1_n_n.rhsNonContracting by decide)]
  rfl

/-- The product into the zero tile at (n, q): the sum over the 64 channels. -/
theorem matmul_apply (v1 : FVec Ideal S4032x64 .f32) (v5 : FVec Ideal S64x1024 .f32) (n : Fin 4032) (q : Fin 1024) :
    matmul dot_S4032x64_S64x1024_S4032x1024_1_0_0_1_n_n none v1 v5 (constant (F := Ideal) S4032x1024 .f32 0x00000000#32) (ix2 n q) = ∑ k : Fin 64, v1 (ix2 n k) * v5 (ix2 k q) := by
  simp only [matmul]
  rw [Ideal.matmul_constant_zero_apply, ← Equiv.sum_comp (ValueIdx.contrEquiv1 dot_S4032x64_S64x1024_S4032x1024_1_0_0_1_n_n 64 rfl rfl).symm]
  refine Finset.sum_congr rfl fun k _ => ?_
  have hk := ValueIdx.contrEquiv1_symm_val dot_S4032x64_S64x1024_S4032x1024_1_0_0_1_n_n 64 rfl rfl k
  have el : dot_S4032x64_S64x1024_S4032x1024_1_0_0_1_n_n.lhsIdx (ix2 n q) ((ValueIdx.contrEquiv1 dot_S4032x64_S64x1024_S4032x1024_1_0_0_1_n_n 64 rfl rfl).symm k) = ix2 n k := funext fun a => Fin.ext (by
    match a with
    | ⟨0, _⟩ => exact lhs0 _ _
    | ⟨1, _⟩ => exact (lhs1 _ _).trans hk)
  have er : dot_S4032x64_S64x1024_S4032x1024_1_0_0_1_n_n.rhsIdx (ix2 n q) ((ValueIdx.contrEquiv1 dot_S4032x64_S64x1024_S4032x1024_1_0_0_1_n_n 64 rfl rfl).symm k) = ix2 k q := funext fun a => Fin.ext (by
    match a with
    | ⟨0, _⟩ => exact (rhs0 _ _).trans hk
    | ⟨1, _⟩ => exact rhs1 _ _)
  rw [el, er]

/-! ## The stages at an index -/

/-- The affinity tile at (n, q). -/
theorem affTile_apply (v1 : FVec Ideal S4032x64 .f32) (v3 : FVec Ideal S4032x1 .f32) (v5 : FVec Ideal S64x1024 .f32) (n : Fin 4032) (q : Fin 1024) :
    affTile v1 v3 v5 (ix2 n q) = ((0 - v3 (ix2 n (0 : Fin 1))) + two * ∑ k : Fin 64, v1 (ix2 n k) * v5 (ix2 k q)) * eighth := by
  show (broadcastTo S4032x1024 (subf (broadcast S4032x1 (Scalar.ofBits (F := Ideal) .f32 0x00000000#32)) v3) broadcasts_S4032x1_S4032x1024 (ix2 n q)
      + Ideal.ofBits .f32 0x40000000#32 * matmul dot_S4032x64_S64x1024_S4032x1024_1_0_0_1_n_n none v1 v5 (constant (F := Ideal) S4032x1024 .f32 0x00000000#32) (ix2 n q))
      * Ideal.ofBits .f32 0x3E000000#32 = _
  rw [bcastCol_apply, matmul_apply]
  show ((Ideal.ofBits .f32 0x00000000#32 - v3 (ix2 n (0 : Fin 1))) + _) * _ = _
  rw [Ideal.ofBits_zero_f32]
  rfl

/-- exp (A - column maximum) at (n, q). -/
theorem expTile_apply (A : FVec Ideal S4032x1024 .f32) (n : Fin 4032) (q : Fin 1024) :
    expTile A (ix2 n q) = Ideal.exp (A (ix2 n q) - (Finset.univ : Finset (Fin 4032)).fold max (⊥ : EReal) (fun k => A (ix2 k q))) := by
  show Ideal.exp (A (ix2 n q) - broadcastTo S4032x1024 (shapeCast S1x1024
    (multiReduction (F := Ideal) .maximumf [0] S1024 A 0xFF800000#32 reduces_S4032x1024_S1024 (.inl rfl) rfl) shapeCasts_S1024_S1x1024)
    broadcasts_S1x1024_S4032x1024 (ix2 n q)) = _
  exact congrArg (fun z => Ideal.exp (A (ix2 n q) - z)) ((bcastRow_apply _ n q).trans (colMax_apply A _ _ q))

/-- The column softmax at (n, q): the specification's, of column q. -/
theorem softTile_apply (A : FVec Ideal S4032x1024 .f32) (n : Fin 4032) (q : Fin 1024) :
    softTile A (ix2 n q) = colSoftmax (fun k => A (ix2 k q)) n := by
  show Ideal.div (expTile A (ix2 n q)) (broadcastTo S4032x1024 (shapeCast S1x1024
    (multiReduction (F := Ideal) .add [0] S1024 (expTile A) 0x00000000#32 reduces_S4032x1024_S1024 (.inl rfl) rfl) shapeCasts_S1024_S1x1024)
    broadcasts_S1x1024_S4032x1024 (ix2 n q)) = _
  unfold colSoftmax
  rw [← expTile_apply A n q]
  refine congrArg (Ideal.div (expTile A (ix2 n q))) ?_
  refine ((bcastRow_apply _ n q).trans (colSum_apply (expTile A) _ _ q)).trans ?_
  exact Finset.sum_congr rfl fun k _ => expTile_apply A k q

/-- THE PAYLOAD AT AN ENTRY: the column softmax of the affinity column built from the key block, the norms and column q
    of the query tile. -/
theorem pay_apply (v0 : Vec Ideal S1x4032x64 .f32) (v2 : Vec Ideal S1x4032x1 .f32) (v4 : Vec Ideal S1x64x1024 .f32)
    (u : Fin 1) (n : Fin 4032) (q : Fin 1024) :
    k0_pay1 (F := Ideal) v0 v2 v4 (ix3 u n q)
      = colSoftmax (fun k => ((0 - v2 (ix3 (0 : Fin 1) k (0 : Fin 1))) + two * ∑ c : Fin 64, v0 (ix3 (0 : Fin 1) k c) * v4 (ix3 (0 : Fin 1) c q)) * eighth) n := by
  rw [pay_eq]
  refine (shapeCast_ab_1ab_apply _ shapeCasts_S4032x1024_S1x4032x1024 u n q).trans ?_
  rw [softTile_apply]
  refine congrArg (fun f => colSoftmax f n) (funext fun k => ?_)
  rw [affTile_apply, shapeCast_1ab_ab_apply v2 shapeCasts_S1x4032x1_S4032x1 k (0 : Fin 1)]
  refine congrArg (fun s => ((0 - v2 (ix3 (0 : Fin 1) k (0 : Fin 1))) + two * s) * eighth) (Finset.sum_congr rfl fun c _ => ?_)
  rw [shapeCast_1ab_ab_apply v0 shapeCasts_S1x4032x64_S4032x64 k c, shapeCast_1ab_ab_apply v4 shapeCasts_S1x64x1024_S64x1024 c q]

/-- So two query tiles that agree on column q give the same entry (n, q). -/
theorem pay_congr_col (v0 : Vec Ideal S1x4032x64 .f32) (v2 : Vec Ideal S1x4032x1 .f32) (v4 v4' : Vec Ideal S1x64x1024 .f32)
    (u : Fin 1) (n : Fin 4032) (q : Fin 1024) (h : ∀ c : Fin 64, v4 (ix3 (0 : Fin 1) c q) = v4' (ix3 (0 : Fin 1) c q)) :
    k0_pay1 (F := Ideal) v0 v2 v4 (ix3 u n q) = k0_pay1 (F := Ideal) v0 v2 v4' (ix3 u n q) := by
  rw [pay_apply, pay_apply]
  refine congrArg (fun f => colSoftmax f n) (funext fun k => ?_)
  refine congrArg (fun s => ((0 - v2 (ix3 (0 : Fin 1) k (0 : Fin 1))) + two * s) * eighth) (Finset.sum_congr rfl fun c _ => ?_)
  rw [h c]

/-- The same at any index of the tile: the entry depends on the query tile through the index's own column. -/
theorem pay_congr_idx (v0 : Vec Ideal S1x4032x64 .f32) (v2 : Vec Ideal S1x4032x1 .f32) (v4 v4' : Vec Ideal S1x64x1024 .f32)
    (j : S1x4032x1024.Idx) (h : ∀ c : Fin 64, v4 (ix3 (0 : Fin 1) c (j 2)) = v4' (ix3 (0 : Fin 1) c (j 2))) :
    k0_pay1 (F := Ideal) v0 v2 v4 j = k0_pay1 (F := Ideal) v0 v2 v4' j := by
  obtain ⟨u, n, q, rfl⟩ : ∃ (u : Fin 1) (n : Fin 4032) (q : Fin 1024), j = ix3 u n q := ⟨j 0, j 1, j 2, eq_ix3 j⟩
  exact pay_congr_col v0 v2 v4 v4' u n q h

end Cert.KernelIdeal.Payload

end
-- ==== Proof.ExactRun.lean ====
/-
  The idealized kernel's run with every staging buffer's contents named, at the ideal instance.

  The grid has 4 x 4 points (batch, query tile). At a point the key block and the norm column are the batch's whole
  blocks; the query tile is columns [1024 t, 1024 t + 1024) of the batch's queries, and for the last tile only the first 960
  of them lie inside the array: the fetch leaves the other 64 columns of the buffer at contents nothing names. The
  body's payload is a column-by-column function of the query tile (Payload.lean), so on the columns inside the array
  the output tile does not depend on those contents, and the write-back moves only those columns. The proof data
  therefore name the query tile's buffer as its block padded with zeros and the output tile's buffer as the payload of
  that; the body obligation is asked only on the columns that are moved.
-/
import proofs.«158698_j6219112644708_2_alg».proof.Proof.BodyIdeal
import proofs.«158698_j6219112644708_2_alg».proof.Proof.Payload
import proofs.«158698_j6219112644708_2_alg».proof.Proof.Gen.KernelIdeal.Frame

set_option maxRecDepth 16384

noncomputable section

namespace Cert.KernelIdeal.Exact

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The query tile at point `t`: its columns inside the array, the rest filled with zeros. -/
def queryTile (c : Dev nD) (t : Fin cfg0.N) : Vec Ideal S1x64x1024 .f32 :=
  win0_2.fill (grid0.coords t) (fun _ => Scalar.ofBits (F := Ideal) .f32 0#32) (iblk m c 2 t)

/-- The proof data: the arrays as the region finds them; after the body the key block, the norm column, the padded
    query tile and the payload of the three. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => queryTile m c t
    | ⟨3, _⟩ => k0_pay1 (F := Ideal) (iblk m c 0 t) (iblk m c 1 t) (queryTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = queryTile m c t := by dsimp only [dats]
theorem after0_3 (c : Dev nD) (t : Fin cfg0.N) :
    (dats m 0 c).after 3 t = k0_pay1 (F := Ideal) (iblk m c 0 t) (iblk m c 1 t) (queryTile m c t) := by dsimp only [dats]

/-- The key block and the norm column are found at their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The query tile is fetched at every point: the body finds its columns inside the array, and `d` elsewhere. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

/-- The moved extents, decided over the grid: the query tile's transfers move its one batch row and all 64 channels,
    and as many columns as the output tile's. -/
theorem moved_extents : ∀ t : Fin cfg0.N, win0_2.xsize (grid0.coords t) 0 = 1 ∧ win0_2.xsize (grid0.coords t) 1 = 64
    ∧ win0_2.xsize (grid0.coords t) 2 = win0_3.xsize (grid0.coords t) 2 :=
  (by decide +kernel : ∀ t : Fin grid0.N, _)

/-- Two fillings of a query tile's moved part agree at every entry of a column inside the array. -/
theorem fill_agree (t : Fin cfg0.N) (g : (win0_2.xblock (grid0.coords t)).Idx → Elt Ideal .f32)
    (d d' : S1x64x1024.Idx → Elt Ideal .f32) (ch : Fin 64) (q : Fin 1024)
    (hq : q.val < win0_3.xsize (grid0.coords t) 2) :
    win0_2.fill (grid0.coords t) d g (ix3 (0 : Fin 1) ch q) = win0_2.fill (grid0.coords t) d' g (ix3 (0 : Fin 1) ch q) := by
  obtain ⟨e0, e1, e2⟩ := moved_extents t
  have hm : win0_2.moved (grid0.coords t) (ix3 (0 : Fin 1) ch q) = true := (win0_2.moved_iff _ _).mpr fun a => by
    match a with
    | ⟨0, _⟩ => show 0 < win0_2.xsize (grid0.coords t) 0; omega
    | ⟨1, _⟩ => show ch.val < win0_2.xsize (grid0.coords t) 1; have := ch.isLt; omega
    | ⟨2, _⟩ => show q.val < win0_2.xsize (grid0.coords t) 2; omega
  unfold Window.fill
  rw [dif_pos hm, dif_pos hm]

/-- On the columns the write-back moves, the output tile is the same whatever filled the query tile past the array. -/
theorem out_cut_eq (t : Fin cfg0.N) (x0 : Vec Ideal S1x4032x64 .f32) (x1 : Vec Ideal S1x4032x1 .f32)
    (g : (win0_2.xblock (grid0.coords t)).Idx → Elt Ideal .f32) (d d' : S1x64x1024.Idx → Elt Ideal .f32) :
    win0_3.cut (grid0.coords t) (outTile (F := Ideal) x0 x1 (win0_2.fill (grid0.coords t) d g))
      = win0_3.cut (grid0.coords t) (k0_pay1 (F := Ideal) x0 x1 (win0_2.fill (grid0.coords t) d' g)) := by
  funext y
  show outTile (F := Ideal) x0 x1 (win0_2.fill (grid0.coords t) d g) (win0_3.xinj (grid0.coords t) y)
    = k0_pay1 (F := Ideal) x0 x1 (win0_2.fill (grid0.coords t) d' g) (win0_3.xinj (grid0.coords t) y)
  rw [outTile_eq]
  have hq : ((win0_3.xinj (grid0.coords t) y) 2).val < win0_3.xsize (grid0.coords t) 2 := (y 2).isLt
  generalize win0_3.xinj (grid0.coords t) y = j at hq ⊢
  exact pay_congr_idx x0 x1 (win0_2.fill (grid0.coords t) d g) (win0_2.fill (grid0.coords t) d' g) j
    fun ch => fill_agree t g d d' ch (j 2) hq

/-! ## The body obligation -/

/-- What the body is handed at point `t`: each buffer at what the proof data say it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back: the two whole blocks as named, the two cut tiles as named on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold queryTile
  iintro ⟨HΦ, Ho, ⟨%d0, H0⟩, ⟨%d1, H1⟩, ⟨%d2, H2⟩, ⟨%d3, H3⟩⟩
  iapply (sound_kernel (F := Ideal) c Set.univ _ _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [win0_2.cut_fill]
    iexact H2
  · iexists outTile (F := Ideal) (iblk m c 0 t) (iblk m c 1 t) (win0_2.fill (grid0.coords t) d2 (iblk m c 2 t))
    erw [win0_3.fill_congr_cut (grid0.coords t) (out_cut_eq t (iblk m c 0 t) (iblk m c 1 t) (iblk m c 2 t) d2 (fun _ => Scalar.ofBits (F := Ideal) .f32 0#32))]
    iexact H3

/-- The library's body obligation, every window loose where the configuration says so. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution terminates, nothing faulting; every windowed array ends at what the write-backs of the
    named tiles leave and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Exact

end
-- ==== Proof.Cover.lean ====
/-
  The output window's blocks cover its whole array.

  The grid has 4 x 4 points (batch b, query tile q). The result array has shape [4, 4032, 4032] and the window's
  blocks have shape [1, 4032, 1024], at block index (b, 0, q). On the last axis 4032 = 3 * 1024 + 960: the blocks
  at q = 0, 1, 2 are whole and the block at q = 3 is cut to its 960 columns inside the array. So block (b, 0, q)
  holds batch b, every row, and the columns from 1024 q up to min 4032 (1024 q + 1024). An index (b, r, c) of the
  array is therefore in the block of the point with block index (b, 0, c / 1024), and every point writes its block
  back. The facts about block indices and cut sizes are decided over the sixteen grid points; everything about the
  array's indices is linear arithmetic from them.
-/
import proofs.«158698_j6219112644708_2_alg».proof.Proof.Gen.KernelIdeal.Points
import proofs.«158698_j6219112644708_2_alg».proof.Proof.Gen.KernelIdeal.Launch
import Idealize.ShloMosaic.Lib.Pipeline.Value

noncomputable section

namespace Cert.KernelIdeal.Cover

open Cert.KernelIdeal
open Cert.KernelIdeal.Gen (flush0_3)
open Idealize.ShloMosaic Idealize.ShloMosaic.TcCoe Idealize.SL.Sem

variable [Cert.KernelIdeal.Facts]

/-- An index of the array is in point `t`'s block iff each coordinate is in the block's range on its axis: from the
    block's start, over the block's size cut at the array's end. -/
theorem mem_blk (t : Fin cfg0.N) (i : S4x4032x4032.Idx) :
    i ∈ ((cfg0.win 3).blk t).view.set ↔ ∀ a : Fin 3, win0_3.index t a * S1x4032x1024.size a ≤ (i a).val
      ∧ (i a).val < win0_3.index t a * S1x4032x1024.size a + win0_3.xsize (grid0.coords t) a := by
  show i ∈ ((View.whole main_v6).slice (win0_3.rect t)).set ↔ _
  rw [View.set_slice_whole, Rect.mem_set_unit]
  exact Iff.rfl

/-- The cut sizes, decided over the grid: one batch, all 4032 rows, and on the last axis 1024 columns for the
    tiles 0, 1, 2 and the 960 columns inside the array for tile 3. -/
theorem ext_facts : ∀ t : Fin cfg0.N,
    win0_3.xsize (grid0.coords t) (0 : Fin 3) = 1
    ∧ win0_3.xsize (grid0.coords t) (1 : Fin 3) = 4032
    ∧ ((win0_3.index t (2 : Fin 3) ≤ 2 ∧ win0_3.xsize (grid0.coords t) (2 : Fin 3) = 1024)
      ∨ (win0_3.index t (2 : Fin 3) = 3 ∧ win0_3.xsize (grid0.coords t) (2 : Fin 3) = 960)) :=
  (by decide +kernel : ∀ t : Fin grid0.N,
    win0_3.xsize (grid0.coords t) (0 : Fin 3) = 1
    ∧ win0_3.xsize (grid0.coords t) (1 : Fin 3) = 4032
    ∧ ((win0_3.index t (2 : Fin 3) ≤ 2 ∧ win0_3.xsize (grid0.coords t) (2 : Fin 3) = 1024)
      ∨ (win0_3.index t (2 : Fin 3) = 3 ∧ win0_3.xsize (grid0.coords t) (2 : Fin 3) = 960)))

/-- Every block index (b, 0, q) with b and q below 4 is some point's. -/
theorem idx_onto : ∀ (q0 : Fin 4) (q2 : Fin 4), ∃ t : Fin cfg0.N, win0_3.index t = ![q0.val, 0, q2.val] :=
  (by decide +kernel : ∀ (q0 : Fin 4) (q2 : Fin 4), ∃ t : Fin grid0.N, win0_3.index t = ![q0.val, 0, q2.val])

/-- Every index of the array is in the block of a point that writes its block back: the point whose block index is
    (batch, 0, column / 1024). -/
theorem covered (i : S4x4032x4032.Idx) :
    ∃ t : Fin cfg0.N, (cfg0.win 3).flush t = true ∧ i ∈ ((cfg0.win 3).blk t).view.set := by
  have hi0 : (i 0).val < 4 := (i 0).isLt
  have hi1 : (i 1).val < 4032 := (i 1).isLt
  have hi2 : (i 2).val < 4032 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  obtain ⟨e0, e1, e2⟩ := ext_facts t
  refine ⟨t, flush0_3 t, ?_⟩
  rw [mem_blk]
  intro a
  match a with
  | ⟨0, _⟩ =>
    show win0_3.index t (0 : Fin 3) * 1 ≤ (i 0).val
      ∧ (i 0).val < win0_3.index t (0 : Fin 3) * 1 + win0_3.xsize (grid0.coords t) (0 : Fin 3)
    omega
  | ⟨1, _⟩ =>
    show win0_3.index t (1 : Fin 3) * 4032 ≤ (i 1).val
      ∧ (i 1).val < win0_3.index t (1 : Fin 3) * 4032 + win0_3.xsize (grid0.coords t) (1 : Fin 3)
    omega
  | ⟨2, _⟩ =>
    show win0_3.index t (2 : Fin 3) * 1024 ≤ (i 2).val
      ∧ (i 2).val < win0_3.index t (2 : Fin 3) * 1024 + win0_3.xsize (grid0.coords t) (2 : Fin 3)
    omega

end Cert.KernelIdeal.Cover

end
-- ==== Proof.HostSide.lean ====
/-
  What the kernel program's host operations before its region leave in the three arrays the region stages.

  The keys' array is the first argument, flattened over its spatial positions to [batch, channel, position], with the
  last two axes swapped: at (b, n, k) it holds the flattened keys at (b, k, n). The norms' array is a column: at (b, n, 0)
  it holds the sum from zero over the 64 channels of the squared entries of key n, the squared norm as the
  specification writes it (with its leading zero). The queries' array is the second argument flattened.
  The two flattened arguments are never read at an index: every statement is in terms of them.
-/
import proofs.«158698_j6219112644708_2_alg».proof.Proof.Gen.KernelIdeal.Frame
import proofs.«158698_j6219112644708_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.HostSide

open Cert.KernelIdeal Cert.KernelIdeal.Gen Idealize.ShloMosaic Idealize.ShloMosaic.TcCoe Idealize.SL.Sem
  Idealize.ShloMosaic.StableHlo Idealize.ShloMosaic.ValueIdx Cert.KnnSpec

/-- The keys flattened over their spatial positions: the first argument reshaped to [4, 64, 4032]. -/
abbrev keys3 (m : (ℓ : Loc nD τ sig) → Buf (Elt Ideal) ℓ) (c : Dev nD) : S4x64x4032.Idx → EReal :=
  shapeCast S4x64x4032 (m ((c.tc : Thread nD τ).loc main_arg0)) shapeCasts_S4x64x1x48x84_S4x64x4032

/-- The queries flattened over their spatial positions: the second argument reshaped to [4, 64, 4032]. -/
abbrev qrys3 (m : (ℓ : Loc nD τ sig) → Buf (Elt Ideal) ℓ) (c : Dev nD) : S4x64x4032.Idx → EReal :=
  shapeCast S4x64x4032 (m ((c.tc : Thread nD τ).loc main_arg1)) shapeCasts_S4x64x48x84_S4x64x4032

/-! ## What the host operations before the region leave, as terms of the two reshaped arguments -/

/-- The queries' array is the second argument reshaped. -/
theorem queries_eq (m : (ℓ : Loc nD τ sig) → Buf (Elt Ideal) ℓ) (c : Dev nD) :
    (Gen.V (F := Ideal) m c main_v2 : S4x64x4032.Idx → EReal) = qrys3 m c := by
  dsimp only [Gen.V, Gen.hostOps0]; after_results; rfl

/-- The keys' array is the reshaped first argument with its last two axes swapped. -/
theorem keysT_eq (m : (ℓ : Loc nD τ sig) → Buf (Elt Ideal) ℓ) (c : Dev nD) :
    (Gen.V (F := Ideal) m c main_v1 : S4x4032x64.Idx → EReal)
      = transpose S4x4032x64 [0, 2, 1] (keys3 m c) transposes_S4x64x4032_S4x4032x64_0_2_1 := by
  dsimp only [Gen.V, Gen.hostOps0]; after_results; rfl

/-- The norms' array is the sum from zero over the channels of the squared keys, as a column. -/
theorem norms_eq (m : (ℓ : Loc nD τ sig) → Buf (Elt Ideal) ℓ) (c : Dev nD) :
    (Gen.V (F := Ideal) m c main_v5 : S4x4032x1.Idx → EReal)
      = broadcastInDim S4x4032x1 ![0, 1] bcast_S4x4032_S4x4032x1_0_1
          (Host.reduceAdd (F := Ideal) (φ := .f32) (mulf (keys3 m c) (keys3 m c)) (constant (F := Ideal) S_ .f32 0x00000000#32)
            reducesTo_S4x64x4032_S4x4032_d1 h_S_) := by
  dsimp only [Gen.V, Gen.hostOps0]; after_results; rfl

/-! ## The same, read at an index -/

/-- The host's sum from zero over the channels of the squares of `x`, at batch `b` and position `n`, is the squared
    norm of the channel vector there. -/
theorem sumSq_at (x : S4x64x4032.Idx → EReal) (b : Fin 4) (n : Fin 4032) :
    (Host.reduceAdd (F := Ideal) (φ := .f32) (mulf x x) (constant (F := Ideal) S_ .f32 0x00000000#32)
        reducesTo_S4x64x4032_S4x4032_d1 h_S_ : S4x4032.Idx → EReal) (ix2 b n) = sqNorm x b n := by
  have h : S4x64x4032.Reduces [1] S4x4032 := by decide
  refine (hostReduceAdd_apply (φ := .f32) (mulf x x) (constant (F := Ideal) S_ .f32 0x00000000#32)
    reducesTo_S4x64x4032_S4x4032_d1 h_S_ (ix2 b n)).trans ?_
  refine (Ideal.hostReduceAdd_single reducesTo_S4x64x4032_S4x4032_d1 h _ _ (ix2 b n)).trans ?_
  unfold sqNorm
  refine congrArg₂ (· + ·) Ideal.ofBits_zero_f32 (Finset.sum_congr rfl fun k _ => ?_)
  have el : h.lift (ix2 b n) k = ix3 b k n :=
    funext fun a => Fin.ext (by match a with | ⟨0, _⟩ => rfl | ⟨1, _⟩ => rfl | ⟨2, _⟩ => rfl)
  exact congrArg (fun i => x i * x i) el

/-- A [4, 4032] array as a column [4, 4032, 1], read at (b, n, 0), is the array at (b, n). -/
theorem column_at (y : S4x4032.Idx → EReal) (b : Fin 4) (n : Fin 4032) :
    broadcastInDim S4x4032x1 ![0, 1] bcast_S4x4032_S4x4032x1_0_1 y (ix3 b n (0 : Fin 1)) = y (ix2 b n) :=
  broadcastInDim_apply _ bcast_S4x4032_S4x4032x1_0_1 y (ix3 b n (0 : Fin 1)) (ix2 b n) (fun a => match a with
    | ⟨0, _⟩ => by show b.val = if (4 : Nat) = 1 then 0 else b.val; rw [if_neg (by decide)]
    | ⟨1, _⟩ => by show n.val = if (4032 : Nat) = 1 then 0 else n.val; rw [if_neg (by decide)])

/-- The keys' array at (b, n, k) is the reshaped keys at (b, k, n). -/
theorem keysT_at (m : (ℓ : Loc nD τ sig) → Buf (Elt Ideal) ℓ) (c : Dev nD) (b : Fin 4) (n : Fin 4032) (k : Fin 64) :
    (Gen.V (F := Ideal) m c main_v1 : S4x4032x64.Idx → EReal) (ix3 b n k) = keys3 m c (ix3 b k n) := by
  rw [keysT_eq]
  exact transpose_ix3_021_apply (keys3 m c) transposes_S4x64x4032_S4x4032x64_0_2_1 b n k

/-- The norms' array at (b, n, 0) is the squared norm of key `n` of batch `b`. -/
theorem norms_at (m : (ℓ : Loc nD τ sig) → Buf (Elt Ideal) ℓ) (c : Dev nD) (b : Fin 4) (n : Fin 4032) :
    (Gen.V (F := Ideal) m c main_v5 : S4x4032x1.Idx → EReal) (ix3 b n (0 : Fin 1)) = sqNorm (keys3 m c) b n := by
  rw [norms_eq, column_at]
  exact sumSq_at (keys3 m c) b n

end Cert.KernelIdeal.HostSide

end
-- ==== Proof.Final.lean ====
/-
  What the idealized kernel's result array ends holding, as one function of the flattened keys and queries.

  Point (b, t) of the grid writes back the columns [1024 t, 1024 t + w) of batch b, w = 1024 but for the last tile, where
  w = 960. Entry (n, q) of that tile is the column softmax of the affinity column built from batch b's key block, norm
  column and column q of its query tile (Payload.lean), and column q of the query tile is column 1024 t + q of the
  batch's queries: so what is written back is the block of ONE whole-array function, the column softmax of the kernel's
  affinity over the arrays the region stages. The blocks cover the result array, hence it ends holding that function;
  and the staged arrays are the transposed keys, the keys' squared norms and the queries, so the function is the
  specification's `kernelSpec`.
-/
import proofs.«158698_j6219112644708_2_alg».proof.Proof.ExactRun
import proofs.«158698_j6219112644708_2_alg».proof.Proof.Cover
import proofs.«158698_j6219112644708_2_alg».proof.Proof.HostSide

set_option maxRecDepth 16384

noncomputable section

namespace Cert.KernelIdeal.Final

open Cert.KernelIdeal Cert.KernelIdeal.Gen Cert.KernelIdeal.Body Cert.KernelIdeal.Payload Cert.KernelIdeal.Exact Cert.KernelIdeal.HostSide
open Idealize.ShloMosaic Idealize.ShloMosaic.TcCoe Idealize.ShloMosaic.ValueIdx Cert.KnnSpec
open Idealize.SL Idealize.SL.Sem
open Idealize.ShloMosaic.Pipeline (Dat Cfg Window)

/-- The kernel's entry for batch `b`, memory position `n` and query position `j`, from the transposed keys `KT`
    [4, 4032, 64], the norm column `NR` [4, 4032, 1] and the queries `Q` [4, 64, 4032]. -/
def gk (KT : S4x4032x64.Idx → EReal) (NR : S4x4032x1.Idx → EReal) (Q : S4x64x4032.Idx → EReal) (b : Fin 4) (n j : Fin 4032) : EReal :=
  colSoftmax (fun k => ((0 - NR (ix3 b k (0 : Fin 1))) + two * ∑ ch : Fin 64, KT (ix3 b k ch) * Q (ix3 b ch j)) * eighth) n

/-- The whole result array. -/
def Gk (KT : S4x4032x64.Idx → EReal) (NR : S4x4032x1.Idx → EReal) (Q : S4x64x4032.Idx → EReal) : S4x4032x4032.Idx → EReal :=
  fun i => gk KT NR Q (i 0) (i 1) (i 2)

/-- The printed index maps, decided over the sixteen points: the three inputs' blocks sit at the output's batch, the
    query tile at the output's tile; the output's middle block index is zero, its batch is below four, its tile ends
    inside the array, and its transfers move its one batch row. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0
    ∧ win0_2.index t (2 : Fin 3) = win0_3.index t (2 : Fin 3)
    ∧ win0_3.index t (1 : Fin 3) = 0 ∧ win0_3.index t (0 : Fin 3) < 4
    ∧ win0_3.index t (2 : Fin 3) * 1024 + win0_3.xsize (grid0.coords t) 2 ≤ 4032 :=
  (by decide +kernel : ∀ t : Fin grid0.N, _)

/-! ## The three inputs' blocks read at an entry -/

/-- The key block at point `t`, entry (k, ch): the transposed keys of the point's batch. -/
theorem read_keys (t : Fin cfg0.N) (X : S4x4032x64.Idx → Elt Ideal .f32) (b : Fin 4) (hb : win0_3.index t (0 : Fin 3) = b.val)
    (k : Fin 4032) (ch : Fin 64) :
    ((cfg0.win 0).blk t).view.read (Elt Ideal) X (ix3 (0 : Fin 1) k ch) = X (ix3 b k ch) := by
  obtain ⟨e00, e01, e02, -⟩ := idx_facts t
  show X (((cfg0.win 0).blk t).view.emb (ix3 (0 : Fin 1) k ch)) = X (ix3 b k ch)
  refine congrArg X (funext fun a => Fin.ext ?_)
  match a with
  | ⟨0, _⟩ => show win0_0.index t (0 : Fin 3) * 1 + 1 * 0 = b.val; omega
  | ⟨1, _⟩ => show win0_0.index t (1 : Fin 3) * 4032 + 1 * k.val = k.val; omega
  | ⟨2, _⟩ => show win0_0.index t (2 : Fin 3) * 64 + 1 * ch.val = ch.val; omega

/-- The norm column at point `t`, entry k. -/
theorem read_norms (t : Fin cfg0.N) (X : S4x4032x1.Idx → Elt Ideal .f32) (b : Fin 4) (hb : win0_3.index t (0 : Fin 3) = b.val)
    (k : Fin 4032) :
    ((cfg0.win 1).blk t).view.read (Elt Ideal) X (ix3 (0 : Fin 1) k (0 : Fin 1)) = X (ix3 b k (0 : Fin 1)) := by
  obtain ⟨-, -, -, e10, e11, e12, -⟩ := idx_facts t
  show X (((cfg0.win 1).blk t).view.emb (ix3 (0 : Fin 1) k (0 : Fin 1))) = X (ix3 b k (0 : Fin 1))
  refine congrArg X (funext fun a => Fin.ext ?_)
  match a with
  | ⟨0, _⟩ => show win0_1.index t (0 : Fin 3) * 1 + 1 * 0 = b.val; omega
  | ⟨1, _⟩ => show win0_1.index t (1 : Fin 3) * 4032 + 1 * k.val = k.val; omega
  | ⟨2, _⟩ => show win0_1.index t (2 : Fin 3) * 1 + 1 * 0 = 0; omega

/-- The query tile at point `t`, entry (ch, q) of a column inside the array: the queries of the point's batch at
    column 1024 * tile + q, whatever fills the tile past the array. -/
theorem read_queries (t : Fin cfg0.N) (X : S4x64x4032.Idx → Elt Ideal .f32) (d : S1x64x1024.Idx → Elt Ideal .f32)
    (b : Fin 4) (hb : win0_3.index t (0 : Fin 3) = b.val) (ch : Fin 64) (q : Fin 1024)
    (hq : q.val < win0_3.xsize (grid0.coords t) 2) (j : Fin 4032) (hj : j.val = win0_3.index t (2 : Fin 3) * 1024 + q.val) :
    win0_2.fill (grid0.coords t) d (((cfg0.win 2).blk t).view.read (Elt Ideal) X) (ix3 (0 : Fin 1) ch q) = X (ix3 b ch j) := by
  obtain ⟨-, -, -, -, -, -, e20, e21, e22, -⟩ := idx_facts t
  obtain ⟨x0, x1, x2⟩ := moved_extents t
  have hm : win0_2.moved (grid0.coords t) (ix3 (0 : Fin 1) ch q) = true := (win0_2.moved_iff _ _).mpr fun a => by
    match a with
    | ⟨0, _⟩ => show 0 < win0_2.xsize (grid0.coords t) 0; omega
    | ⟨1, _⟩ => show ch.val < win0_2.xsize (grid0.coords t) 1; have := ch.isLt; omega
    | ⟨2, _⟩ => show q.val < win0_2.xsize (grid0.coords t) 2; omega
  unfold Window.fill
  rw [dif_pos hm]
  show X (((cfg0.win 2).blk t).view.emb _) = X (ix3 b ch j)
  refine congrArg X (funext fun a => Fin.ext ?_)
  match a with
  | ⟨0, _⟩ => show win0_2.index t (0 : Fin 3) * 1 + 1 * 0 = b.val; omega
  | ⟨1, _⟩ => show win0_2.index t (1 : Fin 3) * 64 + 1 * ch.val = ch.val; omega
  | ⟨2, _⟩ => show win0_2.index t (2 : Fin 3) * 1024 + 1 * q.val = j.val; omega

/-! ## What a point writes back -/

/-- ONE ENTRY of the output tile at point `t`, at tile index `jt`, is the whole-array function at the array index `i` the
    tile index lands on: coordinate by coordinate, block index times block size plus the coordinate inside the block. -/
theorem entry_eq (t : Fin cfg0.N) (KT : S4x4032x64.Idx → Elt Ideal .f32) (NR : S4x4032x1.Idx → Elt Ideal .f32)
    (Q : S4x64x4032.Idx → Elt Ideal .f32) (d : S1x64x1024.Idx → Elt Ideal .f32) (jt : S1x4032x1024.Idx) (i : S4x4032x4032.Idx)
    (h0 : (i 0).val = win0_3.index t (0 : Fin 3) * 1 + 1 * (jt 0).val)
    (h1 : (i 1).val = win0_3.index t (1 : Fin 3) * 4032 + 1 * (jt 1).val)
    (h2 : (i 2).val = win0_3.index t (2 : Fin 3) * 1024 + 1 * (jt 2).val)
    (hq : (jt 2).val < win0_3.xsize (grid0.coords t) 2) :
    k0_pay1 (F := Ideal) (((cfg0.win 0).blk t).view.read (Elt Ideal) KT) (((cfg0.win 1).blk t).view.read (Elt Ideal) NR)
        (win0_2.fill (grid0.coords t) d (((cfg0.win 2).blk t).view.read (Elt Ideal) Q)) jt
      = Gk KT NR Q i := by
  obtain ⟨u, n, q, rfl⟩ : ∃ (u : Fin 1) (n : Fin 4032) (q : Fin 1024), jt = ix3 u n q := ⟨jt 0, jt 1, jt 2, eq_ix3 jt⟩
  obtain ⟨b, n', j, rfl⟩ : ∃ (b : Fin 4) (n' j : Fin 4032), i = ix3 b n' j := ⟨i 0, i 1, i 2, eq_ix3 i⟩
  obtain ⟨-, -, -, -, -, -, -, -, -, e31, -, -⟩ := idx_facts t
  have h0' : b.val = win0_3.index t (0 : Fin 3) * 1 + 1 * u.val := h0
  have h1' : n'.val = win0_3.index t (1 : Fin 3) * 4032 + 1 * n.val := h1
  have h2' : j.val = win0_3.index t (2 : Fin 3) * 1024 + 1 * q.val := h2
  have hq' : q.val < win0_3.xsize (grid0.coords t) 2 := hq
  have hu : u.val = 0 := by have := u.isLt; omega
  have hb : win0_3.index t (0 : Fin 3) = b.val := by omega
  have hn : n = n' := Fin.ext (by omega)
  subst hn
  refine (pay_apply _ _ _ u n q).trans ?_
  show _ = gk KT NR Q b n j
  unfold gk
  refine congrArg (fun f => colSoftmax f n) (funext fun k => ?_)
  rw [read_norms t NR b hb k]
  refine congrArg (fun s => ((0 - NR (ix3 b k (0 : Fin 1))) + two * s) * eighth) (Finset.sum_congr rfl fun ch _ => ?_)
  rw [read_keys t KT b hb k ch, read_queries t Q d b hb ch q hq' j (by omega)]

variable (m : (ℓ : Loc nD τ sig) → Buf (Elt Ideal) ℓ) (ρ : Dev nD → PrngReg)

/-- WHAT POINT `t` WRITES BACK is block `t` of the whole-array function of the arrays the region stages. -/
theorem flushed_eq (c : Dev nD) (t : Fin cfg0.N) :
    (dats m 0 c).flushed 3 t
      = ((cfg0.win 3).blk t).view.read (Elt Ideal) (Gk (V m c main_v1) (V m c main_v5) (V m c main_v2)) := by
  show (cfg0.win 3).cut (grid0.coords t) ((dats m 0 c).after 3 t) = _
  rw [after0_3]
  funext y
  exact entry_eq t (V m c main_v1) (V m c main_v5) (V m c main_v2) (fun _ => Scalar.ofBits (F := Ideal) .f32 0#32)
    (win0_3.xinj (grid0.coords t) y) (((cfg0.win 3).blk t).view.emb y) rfl rfl rfl (y 2).isLt

/-- THE RESULT ARRAY after the run. -/
theorem final (c : Dev nD) :
    (dats m 0 c).arrAt 3 cfg0.N = Gk (V m c main_v1) (V m c main_v5) (V m c main_v2) :=
  (dats m 0 c).arrAt_eq_of_cover 3 _ (fun t _ => flushed_eq m c t) Cert.KernelIdeal.Cover.covered

/-- Over the arrays the host operations leave — the keys transposed, their squared norms, the queries — the kernel's
    whole-array function is the specification's. -/
theorem Gk_eq_spec (c : Dev nD) :
    Gk (V m c main_v1) (V m c main_v5) (V m c main_v2) = kernelSpec (keys3 m c) (qrys3 m c) := by
  funext i
  obtain ⟨b, n, j, rfl⟩ : ∃ (b : Fin 4) (n j : Fin 4032), i = ix3 b n j := ⟨i 0, i 1, i 2, eq_ix3 i⟩
  show gk (V m c main_v1) (V m c main_v5) (V m c main_v2) b n j = colSoftmax (scoreKernel (keys3 m c) (qrys3 m c) b j) n
  unfold gk
  refine congrArg (fun f => colSoftmax f n) (funext fun k => ?_)
  unfold scoreKernel Cert.KnnSpec.inner
  rw [norms_at m c b k, queries_eq m c]
  refine congrArg (fun s => ((0 - sqNorm (keys3 m c) b k) + two * s) * eighth) (Finset.sum_congr rfl fun ch _ => ?_)
  rw [keysT_at m c b k ch]

/-- THE IDEALIZED KERNEL'S RUN: every weakly fair execution terminates, nothing faulting, with the result array at
    the specification's function of the flattened arguments and the arguments unchanged. -/
theorem run : θ_run defs (onTc (τ := τ) (main (F := Ideal))) ⟨m, fun _ => 0, ρ⟩ fun r => ∀ c : Dev nD,
      r.2.mem ((c.tc : Thread nD τ).loc main_v6) = kernelSpec (keys3 m c) (qrys3 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 (3 : Fin 4)).trans ((final m c).trans (Gk_eq_spec m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Final

end
-- ==== Proof.RefIsSpec.lean ====
/-
  The reference program, read one operation at a time, is the specification `refSpec`.

  Three stages. The affinity: the two squared norms are host sums from zero over the 64 channels, the contraction is
  the inner product, and minus the keys' norm plus twice the inner product minus the queries' norm, divided by 8, is
  `scoreRef`. The column maximum: the max-reduce over the memory axis from minus infinity is the fold of `max` from the
  bottom element over the column, and the maximum of minus infinity with it changes nothing. The softmax: the
  exponential of the difference, its column sum from zero (zero plus the sum is the sum), and the quotient.
  The two reshaped arguments are never read at an index: the statement is in terms of them.
-/
import proofs.«158698_j6219112644708_2_alg».proof.Proof.Spec
import proofs.«158698_j6219112644708_2_alg».proof.Proof.SpecLaw
import proofs.«158698_j6219112644708_2_alg».proof.Proof.Gen.ReferenceIdeal.Read
import Idealize.ShloMosaic.Lib.ValueIdx
import Idealize.ShloMosaic.PureOps.Ideal.Laws
import Idealize.ShloMosaic.Lib.Pipeline.Value

noncomputable section

namespace Cert.KnnRef

open Cert.ReferenceIdeal Cert.ReferenceIdeal.Gen Cert.ReferenceIdeal.Read Idealize.ShloMosaic Idealize.ShloMosaic.ValueIdx
  Idealize.ShloMosaic.StableHlo Idealize.ShloMosaic.TcCoe Idealize.SL.Sem Cert.KnnSpec

/-- The contents of the two arguments: keys [4,64,1,48,84] and queries [4,64,48,84]. -/
abbrev Keys0 : Type := (⟨S4x64x1x48x84, .f32⟩ : BufTy).Contents (Elt Ideal)
abbrev Qrys0 : Type := (⟨S4x64x48x84, .f32⟩ : BufTy).Contents (Elt Ideal)

/-! ## The squared norms and the inner product -/

/-- The keys' squared norm at batch `b`, position `n`. -/
theorem keyNorm_at (x0 : Keys0) (b : Fin 4) (n : Fin 4032) :
    val_main_v3 (F := Ideal) x0 (ix2 b n) = sqNorm (val_main_v0 (F := Ideal) x0) b n := by
  have e : ∀ k : Fin 64, idx_main_v3 (ix2 b n) k = ix3 b k n := fun k =>
    funext fun a => Fin.ext (by match a with | ⟨0, _⟩ => rfl | ⟨1, _⟩ => rfl | ⟨2, _⟩ => rfl)
  rw [val_main_v3_apply, val_main_cst_apply]
  simp only [e, val_main_v2_apply, Ideal.ofBits_def, Ideal.ofBits_zero_f32, Ideal.mulf_def]
  rfl

/-- The queries' squared norm at batch `b`, position `j`. -/
theorem qryNorm_at (x1 : Qrys0) (b : Fin 4) (j : Fin 4032) :
    val_main_v9 (F := Ideal) x1 (ix2 b j) = sqNorm (val_main_v1 (F := Ideal) x1) b j := by
  have e : ∀ k : Fin 64, idx_main_v9 (ix2 b j) k = ix3 b k j := fun k =>
    funext fun a => Fin.ext (by match a with | ⟨0, _⟩ => rfl | ⟨1, _⟩ => rfl | ⟨2, _⟩ => rfl)
  rw [val_main_v9_apply, val_main_cst_1_apply]
  simp only [e, val_main_v8_apply, Ideal.ofBits_def, Ideal.ofBits_zero_f32, Ideal.mulf_def]
  rfl

/-- The contraction over the channels at (b, n, j) is the inner product of key `n` and query `j`. -/
theorem dot_at (x0 : Keys0) (x1 : Qrys0) (b : Fin 4) (n j : Fin 4032) :
    val_main_v5 (F := Ideal) x0 x1 (ix3 b n j) = inner (val_main_v0 (F := Ideal) x0) (val_main_v1 (F := Ideal) x1) b n j := by
  have el : ∀ k : Fin 64, lidx_main_v5 (ix3 b n j) k = ix3 b k n := fun k =>
    funext fun a => Fin.ext (by match a with | ⟨0, _⟩ => rfl | ⟨1, _⟩ => rfl | ⟨2, _⟩ => rfl)
  have er : ∀ k : Fin 64, ridx_main_v5 (ix3 b n j) k = ix3 b k j := fun k =>
    funext fun a => Fin.ext (by match a with | ⟨0, _⟩ => rfl | ⟨1, _⟩ => rfl | ⟨2, _⟩ => rfl)
  rw [val_main_v5_apply]
  simp only [el, er]
  rfl

/-! ## The affinity -/

/-- The affinity the reference computes at (b, n, j) is the specification's column `scoreRef … b j` at row `n`. -/
theorem affinity_at (x0 : Keys0) (x1 : Qrys0) (b : Fin 4) (n j : Fin 4032) :
    val_main_v17 (F := Ideal) x0 x1 (ix3 b n j)
      = scoreRef (val_main_v0 (F := Ideal) x0) (val_main_v1 (F := Ideal) x1) b j n := by
  have e12 : idx_main_v12 (ix3 b n j) = ix3 b n (0 : Fin 1) :=
    funext fun a => Fin.ext (by match a with | ⟨0, _⟩ => rfl | ⟨1, _⟩ => rfl | ⟨2, _⟩ => rfl)
  have e4 : idx_main_v4 (ix3 b n (0 : Fin 1)) = ix2 b n :=
    funext fun a => Fin.ext (by match a with | ⟨0, _⟩ => rfl | ⟨1, _⟩ => rfl)
  have e14 : idx_main_v14 (ix3 b n j) = ix3 b (0 : Fin 1) j :=
    funext fun a => Fin.ext (by match a with | ⟨0, _⟩ => rfl | ⟨1, _⟩ => rfl | ⟨2, _⟩ => rfl)
  have e10 : idx_main_v10 (ix3 b (0 : Fin 1) j) = ix2 b j :=
    funext fun a => Fin.ext (by match a with | ⟨0, _⟩ => rfl | ⟨1, _⟩ => rfl)
  rw [val_main_v17_apply, val_main_v15_apply, val_main_v13_apply, val_main_v12_apply, e12, val_main_v11_apply,
    val_main_v4_apply, e4, keyNorm_at, val_main_v7_apply, val_main_v6_apply, val_main_cst_0_apply, dot_at,
    val_main_v14_apply, e14, val_main_v10_apply, e10, qryNorm_at, val_main_v16_apply, val_main_cst_2_apply]
  simp only [Ideal.hostDivf_def, Ideal.subf_def, Ideal.addf_def, Ideal.mulf_def, Ideal.hostNegf_def, Ideal.negf_def,
    Ideal.ofBits_def]
  rfl

/-! ## The column maximum -/

/-- The reduced index (b, j) with memory position `k` put back on axis 1 is (b, k, j). -/
theorem lift_at (h : S4x4032x4032.Reduces [1] S4x4032) (b : Fin 4) (j : Fin 4032) (k : Fin (S4x4032x4032.size 1)) :
    h.lift (ix2 b j) k = ix3 b (⟨k.val, k.isLt⟩ : Fin 4032) j := by
  funext c; apply Fin.ext
  match c with
  | ⟨0, _⟩ => rfl
  | ⟨1, _⟩ => rfl
  | ⟨2, _⟩ => rfl

/-- The reference's max-reduce over the memory axis, at (b, j), is the fold of `max` from minus infinity over the
    affinity column of batch `b` and query `j`. -/
theorem colMax_at (x0 : Keys0) (x1 : Qrys0) (b : Fin 4) (j : Fin 4032) :
    val_main_v18 (F := Ideal) x0 x1 (ix2 b j)
      = (Finset.univ : Finset (Fin 4032)).fold max ⊥ (scoreRef (val_main_v0 (F := Ideal) x0) (val_main_v1 (F := Ideal) x1) b j) := by
  have h : S4x4032x4032.Reduces [1] S4x4032 := by decide
  unfold val_main_v18
  refine (Host.reduce_eq_fold_single (α := Ideal .f32) FloatOps.maximumf (val_main_v17 (F := Ideal) x0 x1)
    (val_main_cst_3 (F := Ideal)) reducesTo_S4x4032x4032_S4x4032_d1 h h_S_ (ix2 b j)).trans ?_
  have hf : (val_main_v17 (F := Ideal) x0 x1 ∘ h.lift (ix2 b j))
      = fun k : Fin 4032 => scoreRef (val_main_v0 (F := Ideal) x0) (val_main_v1 (F := Ideal) x1) b j k :=
    funext fun k => (congrArg (val_main_v17 (F := Ideal) x0 x1) (lift_at h b j k)).trans (affinity_at x0 x1 b k j)
  have hi : val_main_cst_3 (F := Ideal) (Shape.Idx.first h_S_) = (⊥ : EReal) := negInf_eq
  rw [hi]
  exact congrArg (fun f => Finset.fold max (⊥ : EReal) f (Finset.univ : Finset (Fin 4032))) hf

/-- The maximum the reference subtracts, broadcast over the memory axis: at (b, n, j) it is the column's maximum. -/
theorem maxBcast_at (x0 : Keys0) (x1 : Qrys0) (b : Fin 4) (n j : Fin 4032) :
    val_main_v22 (F := Ideal) x0 x1 (ix3 b n j)
      = (Finset.univ : Finset (Fin 4032)).fold max ⊥ (scoreRef (val_main_v0 (F := Ideal) x0) (val_main_v1 (F := Ideal) x1) b j) := by
  have e22 : idx_main_v22 (ix3 b n j) = ix3 b (0 : Fin 1) j :=
    funext fun a => Fin.ext (by match a with | ⟨0, _⟩ => rfl | ⟨1, _⟩ => rfl | ⟨2, _⟩ => rfl)
  have e21 : idx_main_v21 (ix3 b (0 : Fin 1) j) = ix2 b j :=
    funext fun a => Fin.ext (by match a with | ⟨0, _⟩ => rfl | ⟨1, _⟩ => rfl)
  rw [val_main_v22_apply, e22, val_main_v21_apply, e21, val_main_v20_apply, val_main_v19_apply, val_main_cst_4_apply,
    colMax_at]
  simp only [Ideal.maximumf_def, Ideal.ofBits_def, negInf_eq]
  exact max_bot_left _

/-! ## The exponentials, their column sums, the quotient -/

/-- The shifted exponential at (b, n, j). -/
theorem expShift_at (x0 : Keys0) (x1 : Qrys0) (b : Fin 4) (n j : Fin 4032) :
    val_main_v24 (F := Ideal) x0 x1 (ix3 b n j)
      = Ideal.exp (scoreRef (val_main_v0 (F := Ideal) x0) (val_main_v1 (F := Ideal) x1) b j n
          - (Finset.univ : Finset (Fin 4032)).fold max ⊥ (scoreRef (val_main_v0 (F := Ideal) x0) (val_main_v1 (F := Ideal) x1) b j)) := by
  rw [val_main_v24_apply, val_main_v23_apply, affinity_at, maxBcast_at]
  simp only [Ideal.hostUnary_exp_def, Ideal.subf_def]

/-- The column sum of the shifted exponentials at (b, j): summed from zero, and zero plus a sum is the sum. -/
theorem denom_at (x0 : Keys0) (x1 : Qrys0) (b : Fin 4) (j : Fin 4032) :
    val_main_v25 (F := Ideal) x0 x1 (ix2 b j)
      = ∑ n' : Fin 4032, Ideal.exp (scoreRef (val_main_v0 (F := Ideal) x0) (val_main_v1 (F := Ideal) x1) b j n'
          - (Finset.univ : Finset (Fin 4032)).fold max ⊥ (scoreRef (val_main_v0 (F := Ideal) x0) (val_main_v1 (F := Ideal) x1) b j)) := by
  have e : ∀ k : Fin 4032, idx_main_v25 (ix2 b j) k = ix3 b k j := fun k =>
    funext fun a => Fin.ext (by match a with | ⟨0, _⟩ => rfl | ⟨1, _⟩ => rfl | ⟨2, _⟩ => rfl)
  rw [val_main_v25_apply, val_main_cst_5_apply]
  simp only [e, expShift_at, Ideal.ofBits_def, Ideal.ofBits_zero_f32, zero_add]

/-- The reference's result at (b, n, j) is the softmax of the affinity column of (b, j), read at row `n`. -/
theorem softmax_at (x0 : Keys0) (x1 : Qrys0) (b : Fin 4) (n j : Fin 4032) :
    val_main_v28 (F := Ideal) x0 x1 (ix3 b n j)
      = colSoftmax (scoreRef (val_main_v0 (F := Ideal) x0) (val_main_v1 (F := Ideal) x1) b j) n := by
  have e27 : idx_main_v27 (ix3 b n j) = ix3 b (0 : Fin 1) j :=
    funext fun a => Fin.ext (by match a with | ⟨0, _⟩ => rfl | ⟨1, _⟩ => rfl | ⟨2, _⟩ => rfl)
  have e26 : idx_main_v26 (ix3 b (0 : Fin 1) j) = ix2 b j :=
    funext fun a => Fin.ext (by match a with | ⟨0, _⟩ => rfl | ⟨1, _⟩ => rfl)
  rw [val_main_v28_apply, expShift_at, val_main_v27_apply, e27, val_main_v26_apply, e26, denom_at]
  simp only [Ideal.hostDivf_def]
  rfl

/-! ## The reference is the specification -/

/-- The reference program's result is `refSpec` of its two reshaped arguments. -/
theorem res_eq_refSpec (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.KnnSpec.refSpec
          (Cert.ReferenceIdeal.Read.val_main_v0 (m ((c.tc : Thread _ _).loc Cert.ReferenceIdeal.main_arg0)))
          (Cert.ReferenceIdeal.Read.val_main_v1 (m ((c.tc : Thread _ _).loc Cert.ReferenceIdeal.main_arg1))) := by
  show Cert.ReferenceIdeal.Value.res_main_v28 (F := Ideal) m c = _
  rw [val_main_v28_eq]
  funext i
  obtain ⟨b, n, j, rfl⟩ : ∃ (b : Fin 4) (n j : Fin 4032), i = ix3 b n j := ⟨i 0, i 1, i 2, eq_ix3 i⟩
  exact softmax_at _ _ b n j

end Cert.KnnRef

end
-- ==== Proof.Finite.lean ====
/-
  From the precondition to real entries. The precondition is the conjunction of two tests, one per argument array:
  every entry's absolute value is strictly below plus infinity. An extended real whose absolute value max x (-x) is
  below plus infinity is neither infinity: at minus infinity the absolute value is plus infinity, as at plus infinity.
  So every entry of both arrays is a real number.
-/
import proofs.«158698_j6219112644708_2_alg».proof.Pre_finite_inputs
import proofs.«158698_j6219112644708_2_alg».proof.Proof.SpecLaw
import Idealize.ShloMosaic.Lib.ReduceAll
import Idealize.ShloMosaic.Lib.ValueIdx
import Idealize.ShloMosaic.PureOps.Ideal

noncomputable section

namespace Cert.KnnFinite

open Idealize.ShloMosaic
open Cert.Pre_finite_inputs (S4x64x1x48x84 S4x64x48x84 S_)

/-- The shape of rank zero has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- An extended real whose absolute value is strictly below plus infinity is a real number. -/
theorem real_of_abs_lt_top (x : EReal) (h : Ideal.cmp .olt (max x (-x)) (⊤ : EReal) = 1#1) :
    ∃ r : ℝ, x = (r : EReal) := by
  unfold Ideal.cmp at h
  rw [ofBool_eq_one] at h
  simp only [decide_eq_true_eq] at h
  induction x using EReal.rec with
  | bot => simp at h
  | coe r => exact ⟨r, rfl⟩
  | top => simp at h

/-- Under the precondition every entry of both argument arrays is a real number. -/
theorem real_of_pre [Cert.Pre_finite_inputs.Facts]
    (x0 : FVec Ideal S4x64x1x48x84 .f32) (x1 : FVec Ideal S4x64x48x84 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  constructor
  · intro i
    have hi := Host.reduce_andi_all _ _ _ _ _ ha i
    refine real_of_abs_lt_top (x0 i) ?_
    rw [← Cert.KnnSpec.posInf_eq]
    exact hi
  · intro i
    have hi := Host.reduce_andi_all _ _ _ _ _ hb i
    refine real_of_abs_lt_top (x1 i) ?_
    rw [← Cert.KnnSpec.posInf_eq]
    exact hi

end Cert.KnnFinite

end
-- ==== Proof.lean ====
/-
  The proof of the certificate's claim.

  Both programs compute, for each batch, the softmax over the 4032 memory positions of minus the squared distance
  between key and query channel vectors, scaled by 1/8. The reference expands the squared distance to
  (-|k|^2 + 2 <k, q> - |q|^2) / 8; the kernel leaves out the term |q|^2 / 8, which is constant along the softmax axis,
  multiplies by 0.125 instead of dividing by 8, and tiles the query positions in blocks of 1024, the last block
  overhanging the array by 64 columns that are never written back. On finite inputs every affinity entry is a real
  number, and a column's softmax is unchanged by subtracting a real constant from the column (Proof/SpecLaw.lean): that
  is the one law that joins the two sides, and it is where finiteness of the inputs is used.

  The parts: Proof/Spec.lean states the two results as functions of the flattened keys and queries; Proof/SpecLaw.lean
  proves them equal on real inputs; Proof/Finite.lean reads "every entry is real" off the precondition;
  Proof/RefIsSpec.lean reads the reference's run as its specification; Proof/BodyIdeal.lean and Proof/BodyBits.lean run
  the kernel's body; Proof/FrameBits.lean is the frame of the kernel as printed; Proof/Payload.lean reads the body's
  arithmetic at an entry; Proof/ExactRun.lean is the idealized kernel's run with every tile named; Proof/Cover.lean,
  Proof/HostSide.lean and Proof/Final.lean read the result array off that run as the kernel's specification.
-/
import proofs.«158698_j6219112644708_2_alg».proof.Defs
import proofs.«158698_j6219112644708_2_alg».proof.Proof.Gen.Kernel
import proofs.«158698_j6219112644708_2_alg».proof.Proof.Gen.KernelIdeal
import proofs.«158698_j6219112644708_2_alg».proof.Proof.Gen.ReferenceIdeal
import proofs.«158698_j6219112644708_2_alg».proof.Proof.Gen.ReferenceIdeal.Run
import proofs.«158698_j6219112644708_2_alg».proof.Proof.Gen.ReferenceIdeal.Read
import proofs.«158698_j6219112644708_2_alg».proof.Proof.Gen.Pre_finite_inputs
import proofs.«158698_j6219112644708_2_alg».proof.Proof.FrameBits
import proofs.«158698_j6219112644708_2_alg».proof.Proof.Final
import proofs.«158698_j6219112644708_2_alg».proof.Proof.RefIsSpec
import proofs.«158698_j6219112644708_2_alg».proof.Proof.SpecLaw
import proofs.«158698_j6219112644708_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.FrameProof.frame m ρ

theorem frame_kernelIdeal : Cert.frame_KernelIdeal := fun m ρ _ => Cert.KernelIdeal.Exact.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The flattened keys and queries hold real numbers when the arguments do: a reshape only re-indexes. -/
theorem keys_real (x0 : (⟨Cert.ReferenceIdeal.S4x64x1x48x84, .f32⟩ : BufTy).Contents (Elt Ideal))
    (h : ∀ i, ∃ r : ℝ, x0 i = (r : EReal)) (i : Cert.KnnSpec.SKeys.Idx) :
    ∃ r : ℝ, Cert.ReferenceIdeal.Read.val_main_v0 (F := Ideal) x0 i = (r : EReal) := by
  rw [Cert.ReferenceIdeal.Read.val_main_v0_apply]; exact h _

theorem qrys_real (x1 : (⟨Cert.ReferenceIdeal.S4x64x48x84, .f32⟩ : BufTy).Contents (Elt Ideal))
    (h : ∀ i, ∃ r : ℝ, x1 i = (r : EReal)) (i : Cert.KnnSpec.SKeys.Idx) :
    ∃ r : ℝ, Cert.ReferenceIdeal.Read.val_main_v1 (F := Ideal) x1 i = (r : EReal) := by
  rw [Cert.ReferenceIdeal.Read.val_main_v1_apply]; exact h _

/-- At the ideal instance the kernel's result array ends at the kernel's specification of the flattened arguments and
    the reference's at the reference's specification of the same arrays; on finite inputs the two are one function. -/
theorem algebraic : Cert.algebraic_KernelIdeal_ReferenceIdeal := by
  intro m ρ m' ρ' hpre hagree
  refine ⟨fun c => Cert.KnnSpec.kernelSpec (Cert.KernelIdeal.HostSide.keys3 m c) (Cert.KernelIdeal.HostSide.qrys3 m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.KnnFinite.real_of_pre _ _ (hpre c)
  refine (Cert.KnnRef.res_eq_refSpec m' c).trans ?_
  rw [(hagree c).1, (hagree c).2]
  exact (Cert.KnnSpec.kernelSpec_eq_refSpec _ _ (keys_real _ h0) (qrys_real _ h1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
